-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x512 .f32) (main_arg1 : FVec F S512x256 .f32) (main_arg2 : FVec F S256 .f32) (main_arg3 : FVec F S256x1 .f32) (main_arg4 : FVec F S1 .f32) (main_arg5 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S50000x512 : Shape := ⟨2, ![50000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x256 : Shape := ⟨2, ![50000, 256]⟩
abbrev S5000x512 : Shape := ⟨2, ![5000, 512]⟩
abbrev S5000x1 : Shape := ⟨2, ![5000, 1]⟩
abbrev S5000x256 : Shape := ⟨2, ![5000, 256]⟩
abbrev S850000x256 : Shape := ⟨2, ![850000, 256]⟩
abbrev S1x256 : Shape := ⟨2, ![1, 256]⟩
abbrev S1x1 : Shape := ⟨2, ![1, 1]⟩

abbrev nBuf : Space → Nat
  | .hbm => 62
  | .vmem => 15
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x256, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x256, .f32⟩
  | .hbm, ⟨38, _⟩ => ⟨S_, .f32⟩
  | .hbm, ⟨39, _⟩ => ⟨S50000x256, .f32⟩
  | .hbm, ⟨40, _⟩ => ⟨S850000x1, .i32⟩
  | .hbm, ⟨41, _⟩ => ⟨S50000x256, .f32⟩
  | .hbm, ⟨42, _⟩ => ⟨S1x256, .f32⟩
  | .hbm, ⟨43, _⟩ => ⟨S50000x1, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x1, .f32⟩
  | .hbm, ⟨53, _⟩ => ⟨S_, .f32⟩
  | .hbm, ⟨54, _⟩ => ⟨S50000x1, .f32⟩
  | .hbm, ⟨55, _⟩ => ⟨S850000x1, .i32⟩
  | .hbm, ⟨56, _⟩ => ⟨S50000x1, .f32⟩
  | .hbm, ⟨57, _⟩ => ⟨S50000x1, .f32⟩
  | .hbm, ⟨58, _⟩ => ⟨S1x1, .f32⟩
  | .hbm, ⟨59, _⟩ => ⟨S50000x1, .f32⟩
  | .hbm, ⟨60, _⟩ => ⟨S50000x1, .f32⟩
  | .hbm, ⟨61, _⟩ => ⟨S50000, .f32⟩
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S5000x1, .f32⟩
  | .local _ .vmem, ⟨4, _⟩ => ⟨S5000x1, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S256x1, .f32⟩
  | .local _ .vmem, ⟨13, _⟩ => ⟨S5000x1, .f32⟩
  | .local _ .vmem, ⟨14, _⟩ => ⟨S5000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x512_S5000x512_0_0 : ∀ a, (![0, 0] : Fin 2 → Nat) a + S5000x512.size a ≤ S5000x512.size a
  h_S5000x512 : 0 < S5000x512.numel
  inb_S512x256_S512x256_0_0 : ∀ a, (![0, 0] : Fin 2 → Nat) a + S512x256.size a ≤ S512x256.size a
  h_S512x256 : 0 < S512x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x1_S256x1_0_0 : ∀ a, (![0, 0] : Fin 2 → Nat) a + S256x1.size a ≤ S256x1.size a
  h_S256x1 : 0 < S256x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  dot_S5000x512_S512x256_S5000x256_1_0_0_1_n_n_wf : DotDims.WF S5000x512 S512x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x1_S5000x1_1_0_0_1_n_n_wf : DotDims.WF S5000x256 S256x1 S5000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x256, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x1, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x1, .f32⟩
  | .hbm, ⟨112, _⟩ => ⟨S850000x1, .f32⟩
  | .hbm, ⟨113, _⟩ => ⟨S850000x1, .f32⟩
  | .hbm, ⟨114, _⟩ => ⟨S_, .f32⟩
  | .hbm, ⟨115, _⟩ => ⟨S50000x1, .f32⟩
  | .hbm, ⟨116, _⟩ => ⟨S850000x1, .i32⟩
  | .hbm, ⟨117, _⟩ => ⟨S50000x1, .f32⟩
  | .hbm, ⟨118, _⟩ => ⟨S1x1, .f32⟩
  | .hbm, ⟨119, _⟩ => ⟨S50000x1, .f32⟩
  | .hbm, ⟨120, _⟩ => ⟨S50000x1, .f32⟩
  | .hbm, ⟨121, _⟩ => ⟨S50000, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x1_S50000x1_1_0_0_1_n_n_wf : DotDims.WF S50000x256 S256x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.Spec.lean ====
/-
  The two-layer graph convolution as plain functions of its data, entry by entry, over the extended reals.

  H n c is the first linear layer's entry (row n of the features against column c of the first weight); d n is
  the inverse square root of node n's degree; edge t carries the source node r t into the target node named by
  the signed integer s t (an edge whose s t names no node is dropped), and rc t is the target node as an index
  read of d sees it. One program scales each message by d (r t) before the sum over the edges into a node and
  by d v after it; the other scales each message by the product d (r t) * d (rc t) before the sum. The two agree
  when every number involved is a real number and rc t is the node s t names: a real factor moves across a finite
  sum of reals.
-/
import Idealize.ShloMosaic.PureOps.Ideal
import Idealize.ShloMosaic.Lib.ValueIdx

noncomputable section

namespace Cert.Gcn

open Idealize.ShloMosaic Idealize.ShloMosaic.ValueIdx

/-! ## What each of the two fused stages leaves in its result array -/

/-- Entry (p, q) of the first stage: the product of row p of x with column q of w, times the scale of row p. -/
def lin1At (x : (⟨2, ![50000, 512]⟩ : Shape).Idx → EReal) (w : (⟨2, ![512, 256]⟩ : Shape).Idx → EReal)
    (d : (⟨2, ![50000, 1]⟩ : Shape).Idx → EReal) (p : Fin 50000) (q : Fin 256) : EReal :=
  (∑ k : Fin 512, x (ix2 p k) * w (ix2 k q)) * d (ix2 p (0 : Fin 1))

/-- The first stage's whole result array. -/
def lin1 (x : (⟨2, ![50000, 512]⟩ : Shape).Idx → EReal) (w : (⟨2, ![512, 256]⟩ : Shape).Idx → EReal)
    (d : (⟨2, ![50000, 1]⟩ : Shape).Idx → EReal) : (⟨2, ![50000, 256]⟩ : Shape).Idx → EReal :=
  fun i => lin1At x w d (i 0) (i 1)

theorem lin1_apply (x : (⟨2, ![50000, 512]⟩ : Shape).Idx → EReal) (w : (⟨2, ![512, 256]⟩ : Shape).Idx → EReal)
    (d : (⟨2, ![50000, 1]⟩ : Shape).Idx → EReal) (p : Fin 50000) (q : Fin 256) :
    lin1 x w d (ix2 p q) = lin1At x w d p q := rfl

/-- Entry (p, 0) of the second stage: row p of a scaled by its degree factor, shifted by the bias row, cut off
    below at zero, multiplied into the weight column, and scaled by the degree factor again. -/
def lay2At (a : (⟨2, ![50000, 256]⟩ : Shape).Idx → EReal) (d : (⟨2, ![50000, 1]⟩ : Shape).Idx → EReal)
    (b : (⟨2, ![1, 256]⟩ : Shape).Idx → EReal) (w : (⟨2, ![256, 1]⟩ : Shape).Idx → EReal) (p : Fin 50000) : EReal :=
  (∑ k : Fin 256, max (a (ix2 p k) * d (ix2 p (0 : Fin 1)) + b (ix2 (0 : Fin 1) k)) 0 * w (ix2 k (0 : Fin 1)))
    * d (ix2 p (0 : Fin 1))

/-- The second stage's whole result array. -/
def lay2 (a : (⟨2, ![50000, 256]⟩ : Shape).Idx → EReal) (d : (⟨2, ![50000, 1]⟩ : Shape).Idx → EReal)
    (b : (⟨2, ![1, 256]⟩ : Shape).Idx → EReal) (w : (⟨2, ![256, 1]⟩ : Shape).Idx → EReal) :
    (⟨2, ![50000, 1]⟩ : Shape).Idx → EReal :=
  fun i => lay2At a d b w (i 0)

theorem lay2_apply (a : (⟨2, ![50000, 256]⟩ : Shape).Idx → EReal) (d : (⟨2, ![50000, 1]⟩ : Shape).Idx → EReal)
    (b : (⟨2, ![1, 256]⟩ : Shape).Idx → EReal) (w : (⟨2, ![256, 1]⟩ : Shape).Idx → EReal) (p : Fin 50000) (u : Fin 1) :
    lay2 a d b w (ix2 p u) = lay2At a d b w p := rfl

/-! ## The network, entry by entry, in the two arrangements -/

section Net

variable (H : Fin 50000 → Fin 256 → EReal) (d : Fin 50000 → EReal) (r rc : Fin 850000 → Fin 50000)
  (s : Fin 850000 → Int) (b1 w2 : Fin 256 → EReal) (b2 : EReal)

/-- Scaled messages summed into node v, feature c (scale by the source's factor only). -/
def agg1K (v : Fin 50000) (c : Fin 256) : EReal :=
  ∑ t : Fin 850000, if s t = (v.val : Int) then H (r t) c * d (r t) else 0

/-- The second stage at node v, over the first aggregation. -/
def h2sK (v : Fin 50000) : EReal :=
  (∑ c : Fin 256, max (agg1K H d r s v c * d v + b1 c) 0 * w2 c) * d v

/-- The result at node v, scaling before and after each sum. -/
def outK (v : Fin 50000) : EReal :=
  d v * (∑ t : Fin 850000, if s t = (v.val : Int) then h2sK H d r s b1 w2 (r t) else 0) + b2

/-- The first layer's output at node v, feature c, each message scaled by the product of the two factors. -/
def out1R (v : Fin 50000) (c : Fin 256) : EReal :=
  (∑ t : Fin 850000, if s t = (v.val : Int) then H (r t) c * (d (r t) * d (rc t)) else 0) + b1 c

/-- The second linear layer at node v. -/
def h2R (v : Fin 50000) : EReal :=
  ∑ c : Fin 256, max (out1R H d r rc s b1 v c) 0 * w2 c

/-- The result at node v, each message scaled by the product of the two factors. -/
def outR (v : Fin 50000) : EReal :=
  (∑ t : Fin 850000, if s t = (v.val : Int) then h2R H d r rc s b1 w2 (r t) * (d (r t) * d (rc t)) else 0) + b2

end Net

end Cert.Gcn

end
-- ==== Proof.LibGatherRows.lean ====
/-
  A gather of whole rows, and of single entries, at a column of start indices.

  Indexing a table x of N rows and C columns at an integer vector idx of length P (x[idx]) lowers to a gather whose
  start indices form a P-by-1 column: result entry (p, c) is x at (r, c), where the row r is the start index idx[p, 0]
  read as a signed integer and clamped into [0, N - 1]. Indexing a vector v of length N the same way gives, at p, the
  entry v[r] at the same clamped row r. Both reads are stated through one name for the clamped row, so that two
  gathers at one index column are seen to read the same row.
-/
import Idealize.ShloMosaic.Lib.ValueIdx

namespace Cert.LibGatherRows

open Idealize.ShloMosaic Idealize.ShloMosaic.ValueIdx

variable {α : Type}

/-- The row a start index names: the integer idx[p, 0] read signed and clamped into [0, N - 1]. -/
def clampRow {N P w : Nat} (hN : 0 < N) (idx : IVec ⟨2, ![P, 1]⟩ w) (p : Fin P) : Fin N :=
  ⟨min (idx (ix2 p (0 : Fin 1))).toInt.toNat (N - 1), by omega⟩

/-- The dimension numbers of x[idx] for a table x : [N, C] and a column of start indices [P, 1]: the row axis is
    collapsed and indexed, the column axis is carried whole. -/
abbrev rowsDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- The dimension numbers of v[idx] for a vector v : [N] and a column of start indices [P, 1]. -/
abbrev entriesDims (N P : Nat)
    (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- The gather of rows read at (p, c): the table at (the clamped row of idx[p, 0], c). -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (p : Fin P) (c : Fin C) :
    Host.gather (rowsDims N C P wf) x idx (ix2 p c) = x (ix2 (clampRow hN idx p) c) := by
  unfold Host.gather
  congr 1
  funext a
  refine Fin.ext ?_
  match a with
  | ⟨0, _⟩ =>
    show (rowsDims N C P wf).start (ix2 p c) idx 0 + (rowsDims N C P wf).batchCoord (ix2 p c) 0
      + (rowsDims N C P wf).offCoord (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C P wf).startIndexMap from List.mem_singleton.mpr rfl)]
    have hsi : (rowsDims N C P wf).siIdx (ix2 p c) ⟨List.idxOf (0 : Fin 2) (rowsDims N C P wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowsDims N C P wf).start (ix2 p c) idx 1 + (rowsDims N C P wf).batchCoord (ix2 p c) 1
      + (rowsDims N C P wf).offCoord (ix2 p c) 1 = c.val
    rw [GatherDims.batchCoord_eq_zero _ _ _ List.not_mem_nil]
    have hs : (rowsDims N C P wf).start (ix2 p c) idx 1 = 0 := by
      unfold GatherDims.start
      rw [dif_neg (show (1 : Fin 2) ∉ ([0] : List (Fin 2)) by decide)]
    rw [hs]
    have hk : (1 : Fin 2) ∈ (rowsDims N C P wf).sKept :=
      (GatherDims.mem_sKept _ _).mpr ⟨(show (1 : Fin 2) ∉ ([0] : List (Fin 2)) by decide), List.not_mem_nil⟩
    unfold GatherDims.offCoord
    rw [dif_pos hk, Nat.zero_add]
    have hz : ∀ z : Fin (⟨2, ![P, C]⟩ : Shape).rank, z = 1 → (ix2 p c z).val = c.val := by
      intro z hz; subst hz; rfl
    exact hz _ (List.mem_singleton.mp (List.getElem_mem _))

/-- The gather of entries read at p: the vector at the clamped row of idx[p, 0]. -/
theorem gather_entries_apply {N P w : Nat} (hN : 0 < N)
    (wf : GatherDims.WF ⟨1, ![N]⟩ ⟨2, ![P, 1]⟩ ⟨1, ![P]⟩ [] [0] [] [0] [] 1 ![1])
    (v : (⟨1, ![N]⟩ : Shape).Idx → α) (idx : IVec ⟨2, ![P, 1]⟩ w) (p : Fin P) :
    Host.gather (entriesDims N P wf) v idx (ix1 p) = v (ix1 (clampRow hN idx p)) := by
  unfold Host.gather
  congr 1
  funext a
  obtain rfl : a = 0 := Subsingleton.elim _ _
  refine Fin.ext ?_
  show (entriesDims N P wf).start (ix1 p) idx 0 + (entriesDims N P wf).batchCoord (ix1 p) 0
    + (entriesDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N P wf).startIndexMap from List.mem_singleton.mpr rfl)]
  have hsi : (entriesDims N P wf).siIdx (ix1 p) ⟨List.idxOf (0 : Fin 1) (entriesDims N P wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end Cert.LibGatherRows
-- ==== Proof.LibScatterRows2.lean ====
/-
  A scatter-add of whole rows of a matrix along the leading axis, read at an element.

  The operand is an [M, C] array, the updates are T rows [T, C], and the start indices are a column [T, 1] of
  integers: row t of the updates is added into row idx[t, 0] of the operand (update window axis [1], inserted window
  axis [0], the one index component naming operand axis 0, index vector axis 1). The start index is read SIGNED and is
  not clamped: a row whose start index is negative or at least M is dropped. Read at element (m, c) the result is the
  operand's element plus the sum, over the rows t whose start index is m, of the update's element (t, c).
-/
import Idealize.ShloMosaic.PureOps.Ideal
import Idealize.ShloMosaic.Lib.ValueIdx

noncomputable section

namespace Cert.Lib.ScatterRows2

open Idealize.ShloMosaic Idealize.ShloMosaic.ValueIdx

/-- The dimension numbers of a scatter of whole rows `[T, C]` into `[M, C]` along axis 0 at a column `[T, 1]` of
    start indices; their conditions `wf` are decided on a program's literal shapes. -/
abbrev rowsDims (M T C : Nat)
    (wf : ScatterDims.WF ⟨2, ![M, C]⟩ ⟨2, ![T, 1]⟩ ⟨2, ![T, C]⟩ [1] [0] [0] 1) :
    ScatterDims ⟨2, ![M, C]⟩ ⟨2, ![T, 1]⟩ ⟨2, ![T, C]⟩ where
  updateWindowDims := [1]
  insertedWindowDims := [0]
  scatterDimsToOperandDims := [0]
  indexVectorDim := 1
  wf := wf

variable {M T C : Nat} (wf : ScatterDims.WF ⟨2, ![M, C]⟩ ⟨2, ![T, 1]⟩ ⟨2, ![T, C]⟩ [1] [0] [0] 1) {w : Nat}

/-- On the scattered axis the window of update row `t` starts at the start index `idx[t, 0]`, read signed. -/
theorem start_zero (t : Fin T) (c : Fin C) (idx : IVec ⟨2, ![T, 1]⟩ w) :
    (rowsDims M T C wf).start (ix2 t c) idx 0 = (idx (ix2 t 0)).toInt := by
  unfold ScatterDims.start
  rw [dif_pos (show (0 : Fin 2) ∈ (rowsDims M T C wf).scatterDimsToOperandDims from List.mem_singleton.mpr rfl)]
  have hsi : (rowsDims M T C wf).siIdx (ix2 t c) ⟨List.idxOf (0 : Fin 2) (rowsDims M T C wf).scatterDimsToOperandDims,
      List.idxOf_lt_length_iff.2 (List.mem_singleton.mpr rfl)⟩ = ix2 t 0 := by
    funext a; refine Fin.ext ?_
    match a with
    | ⟨0, _⟩ => rfl
    | ⟨1, _⟩ => rfl
  rw [hsi]

/-- On the window axis the window starts at `0`. -/
theorem start_one (t : Fin T) (c : Fin C) (idx : IVec ⟨2, ![T, 1]⟩ w) :
    (rowsDims M T C wf).start (ix2 t c) idx 1 = 0 := by
  unfold ScatterDims.start
  rw [dif_neg (show ¬ (1 : Fin 2) ∈ ([0] : List (Fin 2)) from by decide)]

/-- The scattered axis is an inserted one: the window coordinate there is `0`. -/
theorem window_zero (t : Fin T) (c : Fin C) :
    (rowsDims M T C wf).window (ix2 t c) 0 = 0 := by
  unfold ScatterDims.window
  have h : ¬ (0 : Fin 2) ∈ (rowsDims M T C wf).sKept := (show ¬ (0 : Fin 2) ∈ ([1] : List (Fin 2)) from by decide)
  rw [dif_neg h]

/-- The window coordinate on operand axis 1 is the update's coordinate on its axis 1. -/
theorem window_one (t : Fin T) (c : Fin C) :
    (rowsDims M T C wf).window (ix2 t c) 1 = c.val := by
  unfold ScatterDims.window
  have h : (1 : Fin 2) ∈ (rowsDims M T C wf).sKept := (show (1 : Fin 2) ∈ ([1] : List (Fin 2)) from by decide)
  rw [dif_pos h]
  rfl

/-- Where an update row lands: update element `(t, c')` lands on operand element `(m, c)` exactly when the
    start index of row `t`, read signed, is `m`, and the window coordinates agree. -/
theorem resultIdx?_eq_some_iff (t : Fin T) (c' c : Fin C) (m : Fin M) (idx : IVec ⟨2, ![T, 1]⟩ w) :
    (rowsDims M T C wf).resultIdx? (ix2 t c') idx = some (ix2 m c) ↔
      (idx (ix2 t 0)).toInt = (m.val : Int) ∧ c' = c := by
  unfold ScatterDims.resultIdx?
  constructor
  · intro h
    split at h
    · rename_i hh
      have e := Option.some.inj h
      have e0 : ((rowsDims M T C wf).start (ix2 t c') idx 0 + (rowsDims M T C wf).window (ix2 t c') 0).toNat = m.val :=
        congrArg (fun i : (⟨2, ![M, C]⟩ : Shape).Idx => (i 0).val) e
      have e1 : ((rowsDims M T C wf).start (ix2 t c') idx 1 + (rowsDims M T C wf).window (ix2 t c') 1).toNat = c.val :=
        congrArg (fun i : (⟨2, ![M, C]⟩ : Shape).Idx => (i 1).val) e
      have h0 := (hh 0).1
      rw [start_zero, window_zero] at e0 h0
      rw [start_one, window_one] at e1
      refine ⟨?_, Fin.ext ?_⟩
      · omega
      · omega
    · cases h
  · rintro ⟨h0, rfl⟩
    have hh : ∀ a, 0 ≤ (rowsDims M T C wf).start (ix2 t c') idx a + (rowsDims M T C wf).window (ix2 t c') a ∧
        (rowsDims M T C wf).start (ix2 t c') idx a + (rowsDims M T C wf).window (ix2 t c') a <
          ((⟨2, ![M, C]⟩ : Shape).size a : Int) := by
      intro a
      match a with
      | ⟨0, _⟩ =>
        have := m.isLt
        show 0 ≤ (rowsDims M T C wf).start (ix2 t c') idx 0 + (rowsDims M T C wf).window (ix2 t c') 0 ∧
          (rowsDims M T C wf).start (ix2 t c') idx 0 + (rowsDims M T C wf).window (ix2 t c') 0 < (M : Int)
        rw [start_zero, window_zero, h0]; omega
      | ⟨1, _⟩ =>
        have := c'.isLt
        show 0 ≤ (rowsDims M T C wf).start (ix2 t c') idx 1 + (rowsDims M T C wf).window (ix2 t c') 1 ∧
          (rowsDims M T C wf).start (ix2 t c') idx 1 + (rowsDims M T C wf).window (ix2 t c') 1 < (C : Int)
        rw [start_one, window_one]; omega
    rw [dif_pos hh]
    refine congrArg some (funext fun a => Fin.ext ?_)
    match a with
    | ⟨0, _⟩ =>
      show ((rowsDims M T C wf).start (ix2 t c') idx 0 + (rowsDims M T C wf).window (ix2 t c') 0).toNat = m.val
      rw [start_zero, window_zero, h0]; omega
    | ⟨1, _⟩ =>
      show ((rowsDims M T C wf).start (ix2 t c') idx 1 + (rowsDims M T C wf).window (ix2 t c') 1).toNat = c'.val
      rw [start_one, window_one]; omega

/-- A scatter-add of whole rows read at an element: the operand's element plus the sum, over the rows whose start index
    (read signed) is `m`, of the row's element in the same column. -/
theorem scatterAdd_rows_apply {φ : FTy} (x : FVec Ideal ⟨2, ![M, C]⟩ φ) (idx : IVec ⟨2, ![T, 1]⟩ w)
    (upd : FVec Ideal ⟨2, ![T, C]⟩ φ) (m : Fin M) (c : Fin C) :
    Host.scatterAdd (F := Ideal) (rowsDims M T C wf) x idx upd (ix2 m c) =
      x (ix2 m c) + ∑ t : Fin T, if (idx (ix2 t 0)).toInt = (m.val : Int) then upd (ix2 t c) else 0 := by
  show Ideal.hostScatterAdd (rowsDims M T C wf) x idx upd (ix2 m c) = _
  unfold Ideal.hostScatterAdd
  refine congrArg (x (ix2 m c) + ·) ?_
  rw [← Finset.sum_filter]
  have key : ∀ j : (⟨2, ![T, C]⟩ : Shape).Idx,
      (rowsDims M T C wf).resultIdx? j idx = some (ix2 m c) ↔
        (idx (ix2 (j 0) 0)).toInt = (m.val : Int) ∧ j 1 = c := by
    intro j
    have e : (rowsDims M T C wf).resultIdx? j idx = (rowsDims M T C wf).resultIdx? (ix2 (j 0) (j 1)) idx :=
      congrArg (fun q => (rowsDims M T C wf).resultIdx? q idx) (eq_ix2 j)
    rw [e]
    exact resultIdx?_eq_some_iff wf (j 0) (j 1) c m idx
  refine Finset.sum_bij' (fun j _ => j 0) (fun t _ => ix2 t c) ?_ ?_ ?_ ?_ ?_
  · intro j hj
    rw [Finset.mem_filter] at hj
    exact Finset.mem_filter.2 ⟨Finset.mem_univ _, ((key j).1 hj.2).1⟩
  · intro t ht
    rw [Finset.mem_filter] at ht
    exact Finset.mem_filter.2 ⟨Finset.mem_univ _, (key (ix2 t c)).2 ⟨ht.2, rfl⟩⟩
  · intro j hj
    rw [Finset.mem_filter] at hj
    obtain ⟨-, hc⟩ := (key j).1 hj.2
    show ix2 (j 0) c = j
    rw [← hc]
    exact (eq_ix2 j).symm
  · intro t _
    rfl
  · intro j hj
    rw [Finset.mem_filter] at hj
    obtain ⟨-, hc⟩ := (key j).1 hj.2
    show upd j = upd (ix2 (j 0) c)
    rw [← hc]
    exact congrArg upd (eq_ix2 j)

end Cert.Lib.ScatterRows2

end
-- ==== Proof.RefRead.lean ====
/-
  The reference program of the two-layer graph convolution, read entry by entry.

  The reference computes, per layer, a linear map of the node features, gathers the rows of the result at the source
  node of each edge, scales each gathered row by the product of the two degree factors of the edge (the factor of the
  source and the factor of the target), sums the scaled rows into the target nodes and adds the bias. Read at one node
  this is exactly the entry-by-entry description of the network in which each message is scaled by the product of
  the two factors before the sum over the edges.
-/
import proofs.«134522_j28776280883362_2_alg».proof.Proof.RefReadGen
import proofs.«134522_j28776280883362_2_alg».proof.Proof.Spec
import proofs.«134522_j28776280883362_2_alg».proof.Proof.LibGatherRows
import proofs.«134522_j28776280883362_2_alg».proof.Proof.LibScatterRows2

noncomputable section

namespace Cert.ReferenceIdeal.RefRead

open Cert.ReferenceIdeal Cert.ReferenceIdeal.Gen Cert.ReferenceIdeal.Read Cert.LibGatherRows Idealize.ShloMosaic Idealize.ShloMosaic.ValueIdx

/-! ## The three gathers and the two scatter-adds of rows, read at an entry -/

/-- An entry of a gather of entries of a vector of length 50000 at a column of 850000 start indices. -/
theorem gatherEntries_at (y : (⟨S50000, .f32⟩ : BufTy).Contents (Elt Ideal))
    (idx : (⟨S850000x1, .i32⟩ : BufTy).Contents (Elt Ideal)) (t : Fin 850000) :
    Host.gather gather_S50000_S850000x1_S850000_n_0_n_n_0_1_1 y idx (ix1 t)
      = y (ix1 (clampRow (N := 50000) (by decide) idx t)) :=
  gather_entries_apply (by decide) gather_S50000_S850000x1_S850000_n_0_n_n_0_1_1_wf y idx t

/-- An entry of a gather of rows of a 50000-by-256 table at a column of 850000 start indices. -/
theorem gatherRows256_at (y : (⟨S50000x256, .f32⟩ : BufTy).Contents (Elt Ideal))
    (idx : (⟨S850000x1, .i32⟩ : BufTy).Contents (Elt Ideal)) (t : Fin 850000) (c : Fin 256) :
    Host.gather gather_S50000x256_S850000x1_S850000x256_1_0_n_n_0_1_1256 y idx (ix2 t c)
      = y (ix2 (clampRow (N := 50000) (by decide) idx t) c) :=
  gather_rows_apply (by decide) gather_S50000x256_S850000x1_S850000x256_1_0_n_n_0_1_1256_wf y idx t c

/-- An entry of a gather of rows of a 50000-by-1 table at a column of 850000 start indices. -/
theorem gatherRows1_at (y : (⟨S50000x1, .f32⟩ : BufTy).Contents (Elt Ideal))
    (idx : (⟨S850000x1, .i32⟩ : BufTy).Contents (Elt Ideal)) (t : Fin 850000) (c : Fin 1) :
    Host.gather gather_S50000x1_S850000x1_S850000x1_1_0_n_n_0_1_11 y idx (ix2 t c)
      = y (ix2 (clampRow (N := 50000) (by decide) idx t) c) :=
  gather_rows_apply (by decide) gather_S50000x1_S850000x1_S850000x1_1_0_n_n_0_1_11_wf y idx t c

/-- An entry of the sum of 850000 rows of 256 numbers into the rows of a 50000-by-256 table. -/
theorem scatterRows256_at (x : (⟨S50000x256, .f32⟩ : BufTy).Contents (Elt Ideal))
    (idx : (⟨S850000x1, .i32⟩ : BufTy).Contents (Elt Ideal)) (upd : (⟨S850000x256, .f32⟩ : BufTy).Contents (Elt Ideal))
    (n : Fin 50000) (c : Fin 256) :
    Host.scatterAdd (F := Ideal) (φ := .f32) scatter_S50000x256_S850000x1_S850000x256_1_0_0_1 x idx upd (ix2 n c)
      = x (ix2 n c) + ∑ t : Fin 850000, if (idx (ix2 t (0 : Fin 1))).toInt = (n.val : Int) then upd (ix2 t c) else 0 :=
  Cert.Lib.ScatterRows2.scatterAdd_rows_apply scatter_S50000x256_S850000x1_S850000x256_1_0_0_1_wf x idx upd n c

/-- An entry of the sum of 850000 rows of one number into the rows of a 50000-by-1 table. -/
theorem scatterRows1_at (x : (⟨S50000x1, .f32⟩ : BufTy).Contents (Elt Ideal))
    (idx : (⟨S850000x1, .i32⟩ : BufTy).Contents (Elt Ideal)) (upd : (⟨S850000x1, .f32⟩ : BufTy).Contents (Elt Ideal))
    (n : Fin 50000) (c : Fin 1) :
    Host.scatterAdd (F := Ideal) (φ := .f32) scatter_S50000x1_S850000x1_S850000x1_1_0_0_1 x idx upd (ix2 n c)
      = x (ix2 n c) + ∑ t : Fin 850000, if (idx (ix2 t (0 : Fin 1))).toInt = (n.val : Int) then upd (ix2 t c) else 0 :=
  Cert.Lib.ScatterRows2.scatterAdd_rows_apply scatter_S50000x1_S850000x1_S850000x1_1_0_0_1_wf x idx upd n c

/-! ## The data of the network as the reference computes them -/

/-- The first linear layer: row n of the features against column c of the first weight. -/
abbrev Hf (x0 : (⟨S50000x512, .f32⟩ : BufTy).Contents (Elt Ideal)) (x1 : (⟨S512x256, .f32⟩ : BufTy).Contents (Elt Ideal)) :
    Fin 50000 → Fin 256 → EReal :=
  fun n c => ∑ k : Fin 512, x0 (ix2 n k) * x1 (ix2 k c)

/-- The degree factor of node n. -/
abbrev df (x5 : (⟨S2x800000, .i32⟩ : BufTy).Contents (Elt Ideal)) : Fin 50000 → EReal :=
  fun n => val_main_v15 (F := Ideal) x5 (ix1 n)

/-- The source node of edge t, as a gather reads it. -/
abbrev rf (x5 : (⟨S2x800000, .i32⟩ : BufTy).Contents (Elt Ideal)) : Fin 850000 → Fin 50000 :=
  fun t => clampRow (N := 50000) (by decide) (val_main_v21 (F := Ideal) x5) t

/-- The target node of edge t, as a gather reads it. -/
abbrev rcf (x5 : (⟨S2x800000, .i32⟩ : BufTy).Contents (Elt Ideal)) : Fin 850000 → Fin 50000 :=
  fun t => clampRow (N := 50000) (by decide) (val_main_v28 (F := Ideal) x5) t

/-- The target node of edge t, as the signed integer a sum into the nodes reads. -/
abbrev sf (x5 : (⟨S2x800000, .i32⟩ : BufTy).Contents (Elt Ideal)) : Fin 850000 → Int :=
  fun t => (val_main_v10 (F := Ideal) x5 (ix2 t (0 : Fin 1))).toInt

/-! ## Operations the program repeats

  The second layer computes the degree factor and the index columns again, by the same operations on the same
  argument; each repeated stage is the first one. -/

theorem v36_eq (x5 : (⟨S2x800000, .i32⟩ : BufTy).Contents (Elt Ideal)) :
    val_main_v36 (F := Ideal) x5 = val_main_v21 (F := Ideal) x5 := rfl
theorem v62_eq (x5 : (⟨S2x800000, .i32⟩ : BufTy).Contents (Elt Ideal)) :
    val_main_v62 (F := Ideal) x5 = val_main_v21 (F := Ideal) x5 := rfl
theorem v77_eq (x5 : (⟨S2x800000, .i32⟩ : BufTy).Contents (Elt Ideal)) :
    val_main_v77 (F := Ideal) x5 = val_main_v21 (F := Ideal) x5 := rfl
theorem v69_eq (x5 : (⟨S2x800000, .i32⟩ : BufTy).Contents (Elt Ideal)) :
    val_main_v69 (F := Ideal) x5 = val_main_v28 (F := Ideal) x5 := rfl
theorem v42_eq (x5 : (⟨S2x800000, .i32⟩ : BufTy).Contents (Elt Ideal)) :
    val_main_v42 (F := Ideal) x5 = val_main_v10 (F := Ideal) x5 := rfl
theorem v82_eq (x5 : (⟨S2x800000, .i32⟩ : BufTy).Contents (Elt Ideal)) :
    val_main_v82 (F := Ideal) x5 = val_main_v10 (F := Ideal) x5 := rfl
theorem v56_eq (x5 : (⟨S2x800000, .i32⟩ : BufTy).Contents (Elt Ideal)) :
    val_main_v56 (F := Ideal) x5 = val_main_v15 (F := Ideal) x5 := rfl

/-! ## The scale of an edge: the product of the factors of its two ends -/

theorem v30_at (x5 : (⟨S2x800000, .i32⟩ : BufTy).Contents (Elt Ideal)) (t : Fin 850000) :
    val_main_v30 (F := Ideal) x5 (ix1 t) = df x5 (rf x5 t) * df x5 (rcf x5 t) := by
  rw [val_main_v30_apply, Ideal.mulf_def]
  unfold val_main_v22 val_main_v29
  rw [gatherEntries_at, gatherEntries_at]

theorem v71_at (x5 : (⟨S2x800000, .i32⟩ : BufTy).Contents (Elt Ideal)) (t : Fin 850000) :
    val_main_v71 (F := Ideal) x5 (ix1 t) = df x5 (rf x5 t) * df x5 (rcf x5 t) := by
  rw [val_main_v71_apply, Ideal.mulf_def]
  unfold val_main_v63 val_main_v70
  rw [gatherEntries_at, gatherEntries_at, v56_eq, v62_eq, v69_eq]

/-! ## The first layer -/

theorem v7_at (x0 : (⟨S50000x512, .f32⟩ : BufTy).Contents (Elt Ideal)) (x1 : (⟨S512x256, .f32⟩ : BufTy).Contents (Elt Ideal))
    (n : Fin 50000) (c : Fin 256) :
    val_main_v7 (F := Ideal) x0 x1 (ix2 n c) = Hf x0 x1 n c := by
  rw [val_main_v7_apply]
  refine Finset.sum_congr rfl fun k _ => ?_
  have el : lidx_main_v7 (ix2 n c) k = ix2 n k :=
    funext fun a => Fin.ext (by match a with | ⟨0, _⟩ => rfl | ⟨1, _⟩ => rfl)
  have er : ridx_main_v7 (ix2 n c) k = ix2 k c :=
    funext fun a => Fin.ext (by match a with | ⟨0, _⟩ => rfl | ⟨1, _⟩ => rfl)
  rw [el, er]

/-- The gathered row of edge t: the linear layer's row at the edge's source. -/
theorem v37_at (x0 : (⟨S50000x512, .f32⟩ : BufTy).Contents (Elt Ideal)) (x1 : (⟨S512x256, .f32⟩ : BufTy).Contents (Elt Ideal))
    (x5 : (⟨S2x800000, .i32⟩ : BufTy).Contents (Elt Ideal)) (t : Fin 850000) (c : Fin 256) :
    val_main_v37 (F := Ideal) x0 x1 x5 (ix2 t c) = Hf x0 x1 (rf x5 t) c := by
  unfold val_main_v37
  rw [v36_eq, gatherRows256_at, v7_at]

/-- The scale of edge t, spread over the 256 features. -/
theorem v39_at (x5 : (⟨S2x800000, .i32⟩ : BufTy).Contents (Elt Ideal)) (t : Fin 850000) (c : Fin 256) :
    val_main_v39 (F := Ideal) x5 (ix2 t c) = df x5 (rf x5 t) * df x5 (rcf x5 t) := by
  rw [val_main_v39_apply, val_main_v38_apply]
  have e : idx_main_v38 (idx_main_v39 (ix2 t c)) = ix1 t :=
    funext fun a => Fin.ext (by match a with | ⟨0, _⟩ => rfl)
  rw [e]
  exact v30_at x5 t

/-- The message of edge t. -/
theorem v40_at (x0 : (⟨S50000x512, .f32⟩ : BufTy).Contents (Elt Ideal)) (x1 : (⟨S512x256, .f32⟩ : BufTy).Contents (Elt Ideal))
    (x5 : (⟨S2x800000, .i32⟩ : BufTy).Contents (Elt Ideal)) (t : Fin 850000) (c : Fin 256) :
    val_main_v40 (F := Ideal) x0 x1 x5 (ix2 t c) = Hf x0 x1 (rf x5 t) c * (df x5 (rf x5 t) * df x5 (rcf x5 t)) := by
  rw [val_main_v40_apply, Ideal.mulf_def, v37_at, v39_at]

/-- The messages summed into node n. -/
theorem v43_at (x0 : (⟨S50000x512, .f32⟩ : BufTy).Contents (Elt Ideal)) (x1 : (⟨S512x256, .f32⟩ : BufTy).Contents (Elt Ideal))
    (x5 : (⟨S2x800000, .i32⟩ : BufTy).Contents (Elt Ideal)) (n : Fin 50000) (c : Fin 256) :
    val_main_v43 (F := Ideal) x0 x1 x5 (ix2 n c)
      = ∑ t : Fin 850000, if sf x5 t = (n.val : Int) then val_main_v40 (F := Ideal) x0 x1 x5 (ix2 t c) else 0 := by
  unfold val_main_v43
  rw [v42_eq, scatterRows256_at, val_main_v41_apply, val_main_cst_8_apply, Ideal.ofBits_def, Ideal.ofBits_zero_f32, zero_add]

/-- The first layer's output at node n, feature c, before the cut-off at zero. -/
theorem v46_at (x0 : (⟨S50000x512, .f32⟩ : BufTy).Contents (Elt Ideal)) (x1 : (⟨S512x256, .f32⟩ : BufTy).Contents (Elt Ideal))
    (x2 : (⟨S256, .f32⟩ : BufTy).Contents (Elt Ideal)) (x5 : (⟨S2x800000, .i32⟩ : BufTy).Contents (Elt Ideal))
    (n : Fin 50000) (c : Fin 256) :
    val_main_v46 (F := Ideal) x0 x1 x2 x5 (ix2 n c)
      = Cert.Gcn.out1R (Hf x0 x1) (df x5) (rf x5) (rcf x5) (sf x5) (fun c => x2 (ix1 c)) n c := by
  have hb : val_main_v45 (F := Ideal) x2 (ix2 n c) = x2 (ix1 c) := by
    rw [val_main_v45_apply, val_main_v44_apply]
    exact congrArg x2 (funext fun a => Fin.ext (by match a with | ⟨0, _⟩ => rfl))
  rw [val_main_v46_apply, Ideal.addf_def, hb, v43_at]
  unfold Cert.Gcn.out1R
  refine congrArg (· + x2 (ix1 c)) (Finset.sum_congr rfl fun t _ => ?_)
  rw [v40_at]

/-! ## The second layer -/

/-- The second linear layer at node n. -/
theorem v48_at (x0 : (⟨S50000x512, .f32⟩ : BufTy).Contents (Elt Ideal)) (x1 : (⟨S512x256, .f32⟩ : BufTy).Contents (Elt Ideal))
    (x2 : (⟨S256, .f32⟩ : BufTy).Contents (Elt Ideal)) (x3 : (⟨S256x1, .f32⟩ : BufTy).Contents (Elt Ideal))
    (x5 : (⟨S2x800000, .i32⟩ : BufTy).Contents (Elt Ideal)) (n : Fin 50000) (u : Fin 1) :
    val_main_v48 (F := Ideal) x0 x1 x2 x3 x5 (ix2 n u)
      = Cert.Gcn.h2R (Hf x0 x1) (df x5) (rf x5) (rcf x5) (sf x5) (fun c => x2 (ix1 c)) (fun c => x3 (ix2 c (0 : Fin 1))) n := by
  rw [val_main_v48_apply]
  unfold Cert.Gcn.h2R
  refine Finset.sum_congr rfl fun k _ => ?_
  have el : lidx_main_v48 (ix2 n u) k = ix2 n k :=
    funext fun a => Fin.ext (by match a with | ⟨0, _⟩ => rfl | ⟨1, _⟩ => rfl)
  have er : ridx_main_v48 (ix2 n u) k = ix2 k (0 : Fin 1) :=
    funext fun a => Fin.ext (by
      match a with
      | ⟨0, _⟩ => rfl
      | ⟨1, _⟩ => show u.val = 0; omega)
  rw [el, er, val_main_v47_apply, Ideal.maximumf_def, v46_at, val_main_call1_v0_apply, val_main_call1_cst_apply,
    Ideal.ofBits_def, Ideal.ofBits_zero_f32]

/-- The second layer's message of edge t. -/
theorem v80_at (x0 : (⟨S50000x512, .f32⟩ : BufTy).Contents (Elt Ideal)) (x1 : (⟨S512x256, .f32⟩ : BufTy).Contents (Elt Ideal))
    (x2 : (⟨S256, .f32⟩ : BufTy).Contents (Elt Ideal)) (x3 : (⟨S256x1, .f32⟩ : BufTy).Contents (Elt Ideal))
    (x5 : (⟨S2x800000, .i32⟩ : BufTy).Contents (Elt Ideal)) (t : Fin 850000) (u : Fin 1) :
    val_main_v80 (F := Ideal) x0 x1 x2 x3 x5 (ix2 t u)
      = Cert.Gcn.h2R (Hf x0 x1) (df x5) (rf x5) (rcf x5) (sf x5) (fun c => x2 (ix1 c)) (fun c => x3 (ix2 c (0 : Fin 1))) (rf x5 t)
        * (df x5 (rf x5 t) * df x5 (rcf x5 t)) := by
  have h78 : val_main_v78 (F := Ideal) x0 x1 x2 x3 x5 (ix2 t u)
      = Cert.Gcn.h2R (Hf x0 x1) (df x5) (rf x5) (rcf x5) (sf x5) (fun c => x2 (ix1 c)) (fun c => x3 (ix2 c (0 : Fin 1))) (rf x5 t) := by
    unfold val_main_v78
    rw [v77_eq, gatherRows1_at, v48_at]
  have h79 : val_main_v79 (F := Ideal) x5 (ix2 t u) = df x5 (rf x5 t) * df x5 (rcf x5 t) := by
    rw [val_main_v79_apply]
    have e : idx_main_v79 (ix2 t u) = ix1 t := funext fun a => Fin.ext (by match a with | ⟨0, _⟩ => rfl)
    rw [e]
    exact v71_at x5 t
  rw [val_main_v80_apply, Ideal.mulf_def, h78, h79]

/-- The second layer's messages summed into node n. -/
theorem v83_at (x0 : (⟨S50000x512, .f32⟩ : BufTy).Contents (Elt Ideal)) (x1 : (⟨S512x256, .f32⟩ : BufTy).Contents (Elt Ideal))
    (x2 : (⟨S256, .f32⟩ : BufTy).Contents (Elt Ideal)) (x3 : (⟨S256x1, .f32⟩ : BufTy).Contents (Elt Ideal))
    (x5 : (⟨S2x800000, .i32⟩ : BufTy).Contents (Elt Ideal)) (n : Fin 50000) (u : Fin 1) :
    val_main_v83 (F := Ideal) x0 x1 x2 x3 x5 (ix2 n u)
      = ∑ t : Fin 850000, if sf x5 t = (n.val : Int) then val_main_v80 (F := Ideal) x0 x1 x2 x3 x5 (ix2 t u) else 0 := by
  unfold val_main_v83
  rw [v82_eq, scatterRows1_at, val_main_v81_apply, val_main_cst_19_apply, Ideal.ofBits_def, Ideal.ofBits_zero_f32, zero_add]

/-! ## The result -/

/-- The reference's result at node v is the network's output in the arrangement that scales each message by the
    product of the two degree factors of its edge. -/
theorem ref_eq (x0 : (⟨S50000x512, .f32⟩ : BufTy).Contents (Elt Ideal)) (x1 : (⟨S512x256, .f32⟩ : BufTy).Contents (Elt Ideal))
    (x2 : (⟨S256, .f32⟩ : BufTy).Contents (Elt Ideal)) (x3 : (⟨S256x1, .f32⟩ : BufTy).Contents (Elt Ideal))
    (x4 : (⟨S1, .f32⟩ : BufTy).Contents (Elt Ideal)) (x5 : (⟨S2x800000, .i32⟩ : BufTy).Contents (Elt Ideal)) (v : Fin 50000) :
    val_main_v87 (F := Ideal) x0 x1 x2 x3 x4 x5 (ix1 v) =
      Cert.Gcn.outR (fun n c => ∑ k : Fin 512, x0 (ix2 n k) * x1 (ix2 k c))
        (fun n => val_main_v15 (F := Ideal) x5 (ix1 n))
        (fun t => clampRow (N := 50000) (by decide) (val_main_v21 (F := Ideal) x5) t)
        (fun t => clampRow (N := 50000) (by decide) (val_main_v28 (F := Ideal) x5) t)
        (fun t => (val_main_v10 (F := Ideal) x5 (ix2 t (0 : Fin 1))).toInt)
        (fun c => x2 (ix1 c)) (fun c => x3 (ix2 c (0 : Fin 1))) (x4 (ix1 (0 : Fin 1))) v := by
  show _ = Cert.Gcn.outR (Hf x0 x1) (df x5) (rf x5) (rcf x5) (sf x5) (fun c => x2 (ix1 c)) (fun c => x3 (ix2 c (0 : Fin 1)))
    (x4 (ix1 (0 : Fin 1))) v
  have e87 : idx_main_v87 (ix1 v) = ix2 v (0 : Fin 1) :=
    funext fun a => Fin.ext (by
      match a with
      | ⟨0, _⟩ => exact Nat.div_one _
      | ⟨1, _⟩ => rfl)
  have hb : val_main_v85 (F := Ideal) x4 (ix2 v (0 : Fin 1)) = x4 (ix1 (0 : Fin 1)) := by
    rw [val_main_v85_apply, val_main_v84_apply]
    exact congrArg x4 (funext fun a => Fin.ext (by match a with | ⟨0, _⟩ => rfl))
  rw [val_main_v87_apply, e87, val_main_v86_apply, Ideal.addf_def, hb, v83_at]
  unfold Cert.Gcn.outR
  refine congrArg (· + x4 (ix1 (0 : Fin 1))) (Finset.sum_congr rfl fun t _ => ?_)
  rw [v80_at]

end Cert.ReferenceIdeal.RefRead

end
-- ==== Proof.KernelRun.lean ====
/-
  The run of the program with its result named.

  Every weakly fair execution of the program from any memory terminates without a fault; the result buffer ends at
  the contents the chain of boundary contents gives it (the last boundary's fold, read at the result's reference), and
  the argument arrays end as launched. The run itself is the one the frame of the program is proved by: the launch of
  the two regions among the stretches of host operations, the last thread state read against the final state.
-/
import proofs.«134522_j28776280883362_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_named : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.KernelDefs.lean ====
/-
  The program's host glue as pure functions of the argument arrays.

  Between the launch and the return the program computes: the source and target index arrays of the edges with a
  self-loop appended per node (rowArr, colArr); the sources as a gather reads them (rowN: negative entries shifted
  by the node count) and the targets as a scatter-add reads them (colS); the degree of each node as a scatter-add of
  ones, and its inverse square root where the degree is positive (dinv), reshaped to a column (dinv2); the first
  stage's array (the linear layer scaled by the source factor), gathered at the sources and summed into the targets
  (agg1); the second stage's column, gathered and summed the same way, scaled by the target factor and shifted by the
  last bias (outArr).
-/
import proofs.«134522_j28776280883362_2_alg».proof.Proof.Gen.KernelIdeal
import proofs.«134522_j28776280883362_2_alg».proof.Proof.Spec

noncomputable section

namespace Cert.KernelIdeal.Chain

open Cert.KernelIdeal Cert.KernelIdeal.Facts₀ Cert.KernelIdeal.Facts
open Idealize.ShloMosaic

/-! ## The glue as functions of the arguments -/

/-- The edges' source nodes, a self-loop per node appended. -/
def rowArr (a5 : IVec S2x800000 32) : IVec S850000 32 :=
  concatenate S850000 0 [⟨S800000, shapeCast S800000 (extractStridedSlice S1x800000 ![0, 0] a5 slices_S2x800000_S1x800000_0_0) shapeCasts_S1x800000_S800000⟩, ⟨S50000, iotaInDim S50000 32 0⟩] concatenates_S800000_S50000_S850000_d0

/-- The edges' target nodes, a self-loop per node appended. -/
def colArr (a5 : IVec S2x800000 32) : IVec S850000 32 :=
  concatenate S850000 0 [⟨S800000, shapeCast S800000 (extractStridedSlice S1x800000 ![1, 0] a5 slices_S2x800000_S1x800000_1_0) shapeCasts_S1x800000_S800000⟩, ⟨S50000, iotaInDim S50000 32 0⟩] concatenates_S800000_S50000_S850000_d0

/-- An index array as a gather reads it: a negative entry shifted by the node count, as a column. -/
def normIdx (a : IVec S850000 32) : IVec S850000x1 32 :=
  broadcastInDim S850000x1 ![0] bcast_S850000_S850000x1_0
    (select (cmpi .slt a (broadcastInDim S850000 ![] bcast_S_S850000 (constantI S_ 32 0#32)))
      (addi a (broadcastInDim S850000 ![] bcast_S_S850000 (constantI S_ 32 50000#32))) a)

/-- The sources as a gather reads them. -/
def rowN (a5 : IVec S2x800000 32) : IVec S850000x1 32 := normIdx (rowArr a5)

/-- The targets as a scatter-add reads them: the array as a column. -/
def colS (a5 : IVec S2x800000 32) : IVec S850000x1 32 :=
  broadcastInDim S850000x1 ![0] bcast_S850000_S850000x1_0 (colArr a5)

/-- Each node's degree: ones summed into the targets. -/
def deg (a5 : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32)) (colS a5)
    (broadcastInDim S850000 ![] bcast_S_S850000 (constant (F := Ideal) S_ .f32 0x3F800000#32))

/-- The degree factor: the inverse square root of a positive degree, zero otherwise. -/
def dinv (a5 : IVec S2x800000 32) : FVec Ideal S50000 .f32 :=
  select (cmpf (F := Ideal) .ogt (deg a5) (broadcastInDim S50000 ![] bcast_S_S50000 (constant (F := Ideal) S_ .f32 0x00000000#32)))
    (Host.rsqrt (F := Ideal) (deg a5))
    (broadcastInDim S50000 ![] bcast_S_S50000 (id (constant (F := Ideal) S_ .f32 0x00000000#32)))

/-- The degree factor as a column. -/
def dinv2 (a5 : IVec S2x800000 32) : FVec Ideal S50000x1 .f32 := shapeCast S50000x1 (dinv a5) shapeCasts_S50000_S50000x1

/-- The first stage's result. -/
def h1s (a0 : FVec Ideal S50000x512 .f32) (a1 : FVec Ideal S512x256 .f32) (a5 : IVec S2x800000 32) : FVec Ideal S50000x256 .f32 :=
  Cert.Gcn.lin1 a0 a1 (dinv2 a5)

/-- The first aggregation: the first stage's rows gathered at the sources and summed into the targets. -/
def agg1 (a0 : FVec Ideal S50000x512 .f32) (a1 : FVec Ideal S512x256 .f32) (a5 : IVec S2x800000 32) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32)) (colS a5)
    (Host.gather gather_S50000x256_S850000x1_S850000x256_1_0_n_n_0_1_1256 (h1s a0 a1 a5) (rowN a5))

/-- The second stage's result. -/
def h2s (a0 : FVec Ideal S50000x512 .f32) (a1 : FVec Ideal S512x256 .f32) (a2 : FVec Ideal S256 .f32) (a3 : FVec Ideal S256x1 .f32)
    (a5 : IVec S2x800000 32) : FVec Ideal S50000x1 .f32 :=
  Cert.Gcn.lay2 (agg1 a0 a1 a5) (dinv2 a5) (shapeCast S1x256 a2 shapeCasts_S256_S1x256) a3

/-- The program's result. -/
def outArr (a0 : FVec Ideal S50000x512 .f32) (a1 : FVec Ideal S512x256 .f32) (a2 : FVec Ideal S256 .f32) (a3 : FVec Ideal S256x1 .f32)
    (a4 : FVec Ideal S1 .f32) (a5 : IVec S2x800000 32) : FVec Ideal S50000 .f32 :=
  shapeCast S50000
    (addf (mulf (dinv2 a5)
        (Host.scatterAdd (F := Ideal) scatter_S50000x1_S850000x1_S850000x1_1_0_0_1
          (broadcastInDim S50000x1 ![] bcast_S_S50000x1 (constant (F := Ideal) S_ .f32 0x00000000#32)) (colS a5)
          (Host.gather gather_S50000x1_S850000x1_S850000x1_1_0_n_n_0_1_11 (h2s a0 a1 a2 a3 a5) (rowN a5))))
      (broadcastInDim S50000x1 ![0, 1] bcast_S1x1_S50000x1_0_1 (broadcastInDim S1x1 ![1] bcast_S1_S1x1_1 a4)))
    shapeCasts_S50000x1_S50000

end Cert.KernelIdeal.Chain

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Region0.lean ====
/-
  The first fused stage as one function of its three arrays.

  The stage walks the 50000 rows of the feature array in ten blocks of 5000 rows. At each block it multiplies the
  block of rows by the whole weight array and scales row p of the product by the entry (p, 0) of the matching
  block of the scale column; the result goes to the same rows of the result array. Entry (p, q) of a block's
  result therefore only reads row p of the features, column q of the weights and entry p of the scale column, so
  every block is a block of ONE function of the three whole arrays, and the ten blocks tile the result array.
-/
import proofs.«134522_j28776280883362_2_alg».proof.Proof.Gen.KernelIdeal.Frame
import proofs.«134522_j28776280883362_2_alg».proof.Proof.Spec
import proofs.«134522_j28776280883362_2_alg».proof.Proof.LibPlainContract
import proofs.«134522_j28776280883362_2_alg».proof.Proof.LibKeepdims
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

/-! ## The block's arithmetic at one entry -/

/-- Entry (p, q) of what the stage computes from a block of rows x0, the weights x1 and a block x2 of the scale
    column: row p of x0 against column q of x1, times the scale of row p. -/
theorem pay0_apply (x0 : Vec Ideal S5000x512 .f32) (x1 : Vec Ideal S512x256 .f32) (x2 : Vec Ideal S5000x1 .f32)
    (p : Fin 5000) (q : Fin 256) :
    k0_pay1 (F := Ideal) x0 x1 x2 (ix2 p q) = (∑ k : Fin 512, x0 (ix2 p k) * x1 (ix2 k q)) * x2 (ix2 p (0 : Fin 1)) := by
  unfold k0_pay1
  refine (mulf_apply _ _ (ix2 p q)).trans ?_
  refine congrArg₂ (· * ·) ?_ ?_
  · exact Cert.LibPlainContract.matmul_plain_apply 5000 512 256 (some .fp32) x0 x1 p q
  · refine (Cert.Lib.Keepdims.broadcastTo_a1_ab_apply _ broadcasts_S5000x1_S5000x256 p q).trans ?_
    rw [shapeCast_self]

/-! ## Where a block sits in its array -/

variable (V : (c : Dev nD) → (b : Ref sig .tc) → Buf (Elt Ideal) ((c : Thread nD τ).loc b))

theorem zeros0 : (![0, 0] : Fin 2 → Nat) = fun _ => 0 := funext fun a => by fin_cases a <;> rfl

/-- The block index maps, over the ten grid points: the three row-blocked arrays are at block (t, 0) at point t,
    the weight array at block (0, 0) throughout. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of the block at point t is row 5000 t + p of the array. -/
def row0 (t : Fin cfg0.N) (p : Fin 5000) : Fin 50000 :=
  ⟨t.val * 5000 + p.val, by
    have ht : t.val < 10 := Nat.lt_of_lt_of_eq t.isLt (N_0 : cfg0.N = 10)
    have := p.isLt; omega⟩

theorem row0_val (t : Fin cfg0.N) (p : Fin 5000) : (row0 t p).val = t.val * 5000 + p.val := rfl

/-- Entry (p, k) of the feature block at point t is entry (5000 t + p, k) of the features. -/
theorem emb0_0 (t : Fin cfg0.N) (p : Fin 5000) (k : Fin 512) :
    ((cfg0.win 0).blk t).view.emb (ix2 p k) = ix2 (row0 t p) k := by
  obtain ⟨h0, h1, -⟩ := index0 t
  funext a; apply Fin.ext
  match a with
  | ⟨0, _⟩ => show win0_0.index t (0 : Fin 2) * 5000 + 1 * p.val = t.val * 5000 + p.val; omega
  | ⟨1, _⟩ => show win0_0.index t (1 : Fin 2) * 512 + 1 * k.val = k.val; omega

/-- The weight block is the whole weight array. -/
theorem emb0_1 (t : Fin cfg0.N) (k : Fin 512) (q : Fin 256) :
    ((cfg0.win 1).blk t).view.emb (ix2 k q) = ix2 k q := by
  obtain ⟨-, -, h0, h1, -⟩ := index0 t
  funext a; apply Fin.ext
  match a with
  | ⟨0, _⟩ => show win0_1.index t (0 : Fin 2) * 512 + 1 * k.val = k.val; omega
  | ⟨1, _⟩ => show win0_1.index t (1 : Fin 2) * 256 + 1 * q.val = q.val; omega

/-- Entry (p, 0) of the scale block at point t is entry (5000 t + p, 0) of the scale column. -/
theorem emb0_2 (t : Fin cfg0.N) (p : Fin 5000) (u : Fin 1) :
    ((cfg0.win 2).blk t).view.emb (ix2 p u) = ix2 (row0 t p) u := by
  obtain ⟨-, -, -, -, h0, h1, -⟩ := index0 t
  funext a; apply Fin.ext
  match a with
  | ⟨0, _⟩ => show win0_2.index t (0 : Fin 2) * 5000 + 1 * p.val = t.val * 5000 + p.val; omega
  | ⟨1, _⟩ => show win0_2.index t (1 : Fin 2) * 1 + 1 * u.val = u.val; omega

/-- Entry (p, q) of the result block at point t is entry (5000 t + p, q) of the result. -/
theorem emb0_3 (t : Fin cfg0.N) (p : Fin 5000) (q : Fin 256) :
    ((cfg0.win 3).blk t).view.emb (ix2 p q) = ix2 (row0 t p) q := by
  obtain ⟨-, -, -, -, -, -, h0, h1⟩ := index0 t
  funext a; apply Fin.ext
  match a with
  | ⟨0, _⟩ => show win0_3.index t (0 : Fin 2) * 5000 + 1 * p.val = t.val * 5000 + p.val; omega
  | ⟨1, _⟩ => show win0_3.index t (1 : Fin 2) * 256 + 1 * q.val = q.val; omega

/-! ## What a grid point writes back -/

/-- What point t writes back is block t of the stage's function of the three whole arrays. -/
theorem flushed0_eq (c : Dev nD) (t : Fin cfg0.N) :
    (dat0 (F := Ideal) V c).flushed 3 t
      = ((cfg0.win 3).blk t).view.read (Elt Ideal) (Cert.Gcn.lin1 (V c main_arg0) (V c main_arg1) (V c main_v15)) := by
  show (cfg0.win 3).cut (grid0.coords t) ((dat0 (F := Ideal) V c).after 3 t) = _
  rw [after0_3]
  unfold out0_3
  rw [View.canon_unit_zero zeros0]
  simp only [View.ld_unit_zero (S := S5000x512) zeros0, View.ld_unit_zero (S := S512x256) zeros0,
    View.ld_unit_zero (S := S5000x1) zeros0]
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (iblk0 V c 2 t) (ix2 p q)
    = Cert.Gcn.lin1 (V c main_arg0) (V c main_arg1) (V c main_v15) (((cfg0.win 3).blk t).view.emb (ix2 p q))
  refine (pay0_apply (iblk0 V c 0 t) (iblk0 V c 1 t) (iblk0 V c 2 t) p q).trans ?_
  rw [emb0_3 t p q, Cert.Gcn.lin1_apply]
  unfold Cert.Gcn.lin1At
  refine congrArg₂ (· * ·) (Finset.sum_congr rfl fun k _ => congrArg₂ (· * ·) ?_ ?_) ?_
  · exact congrArg (V c main_arg0) (emb0_0 t p k)
  · exact congrArg (V c main_arg1) (emb0_1 t k q)
  · exact congrArg (V c main_v15) (emb0_2 t p 0)

/-! ## The ten blocks tile the result -/

/-- An entry of the result lies in the block of point t iff each coordinate lies in the block's range. -/
theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v16).slice (win0_3.rect t)).set ↔ _
  rw [View.set_slice_whole, Rect.mem_set_unit]
  exact Iff.rfl

/-- Row r of the result lies in the block of point r / 5000. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 5000 :=
    ⟨⟨(i 0).val / 5000, Nat.lt_of_lt_of_eq (by omega : (i 0).val / 5000 < 10) (N_0 : cfg0.N = 10).symm⟩, rfl⟩
  obtain ⟨-, -, -, -, -, -, h0, h1⟩ := index0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-! ## The result array after the stage -/

/-- After the ten grid points the result array holds the first stage's function of the features, the weights and
    the scale column, as the stage found them. -/
theorem final0 (c : Dev nD) :
    (dat0 (F := Ideal) V c).arrAt 3 cfg0.N = Cert.Gcn.lin1 (V c main_arg0) (V c main_arg1) (V c main_v15) :=
  (dat0 (F := Ideal) V c).arrAt_eq_of_cover 3 (Cert.Gcn.lin1 (V c main_arg0) (V c main_arg1) (V c main_v15))
    (fun t _ => flushed0_eq V c t) cover0

end Cert.KernelIdeal.Region

end
-- ==== Proof.Region1.lean ====
/-
  The second fused stage as one function of its four arrays.

  The stage walks the 50000 rows of the aggregated features in ten blocks of 5000 rows. At each block it scales row
  p by entry (p, 0) of the matching block of the scale column, adds the bias row, cuts the sum off below at zero,
  multiplies the block by the whole weight column and scales row p of the product again; the result goes to the same
  rows of the one-column result array. Entry (p, 0) of a block's result only reads row p of the features, entry p of
  the scale column, the bias row and the weight column, so every block is a block of ONE function of the four whole
  arrays, and the ten blocks tile the result array.
-/
import proofs.«134522_j28776280883362_2_alg».proof.Proof.Gen.KernelIdeal.Frame
import proofs.«134522_j28776280883362_2_alg».proof.Proof.Spec
import proofs.«134522_j28776280883362_2_alg».proof.Proof.LibPlainContract
import proofs.«134522_j28776280883362_2_alg».proof.Proof.LibKeepdims
import Idealize.ShloMosaic.Lib.Pipeline.Value
import Idealize.ShloMosaic.Lib.ValueLayout

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

/-! ## The block's arithmetic at one entry -/

/-- Entry (p, u) of what the stage computes from a block of rows x0, a block x1 of the scale column, the bias row x2
    and the weight column x3: row p of x0 scaled by the scale of row p, shifted by the bias, cut off below at zero,
    against the weight column, and scaled by the scale of row p again. -/
theorem pay1_apply (x0 : Vec Ideal S5000x256 .f32) (x1 : Vec Ideal S5000x1 .f32) (x2 : Vec Ideal S1x256 .f32)
    (x3 : Vec Ideal S256x1 .f32) (p : Fin 5000) (u : Fin 1) :
    k1_pay1 (F := Ideal) x0 x1 x2 x3 (ix2 p u)
      = (∑ k : Fin 256, max (x0 (ix2 p k) * x1 (ix2 p (0 : Fin 1)) + x2 (ix2 (0 : Fin 1) k)) 0 * x3 (ix2 k u))
          * x1 (ix2 p u) := by
  unfold k1_pay1
  refine (mulf_apply _ _ (ix2 p u)).trans ?_
  refine congrArg₂ (· * ·) ?_ (by rw [shapeCast_self])
  refine (Cert.LibPlainContract.matmul_plain_apply 5000 256 1 (some .fp32) _ x3 p u).trans ?_
  refine Finset.sum_congr rfl fun k _ => congrArg (· * x3 (ix2 k u)) ?_
  refine (maximumf_apply _ _ (ix2 p k)).trans ?_
  refine congrArg₂ max ?_ ?_
  · refine (addf_apply _ _ (ix2 p k)).trans ?_
    refine congrArg₂ (· + ·) ?_ ?_
    · refine (mulf_apply _ _ (ix2 p k)).trans ?_
      refine congrArg₂ (· * ·) ?_ ?_
      · rw [shapeCast_self]
      · refine (Cert.Lib.Keepdims.broadcastTo_a1_ab_apply _ broadcasts_S5000x1_S5000x256 p k).trans ?_
        rw [shapeCast_self]
    · refine (broadcastTo_1b_ab_apply _ broadcasts_S1x256_S5000x256 p k).trans ?_
      rw [shapeCast_self]
  · exact Ideal.ofBits_zero_f32

/-! ## Where a block sits in its array -/

variable (V : (c : Dev nD) → (b : Ref sig .tc) → Buf (Elt Ideal) ((c : Thread nD τ).loc b))

theorem zeros1 : (![0, 0] : Fin 2 → Nat) = fun _ => 0 := funext fun a => by fin_cases a <;> rfl

/-- The block index maps, over the ten grid points: the three row-blocked arrays are at block (t, 0) at point t,
    the bias row and the weight column at block (0, 0) throughout. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the block at point t is row 5000 t + p of the array. -/
def row1 (t : Fin cfg1.N) (p : Fin 5000) : Fin 50000 :=
  ⟨t.val * 5000 + p.val, by
    have ht : t.val < 10 := Nat.lt_of_lt_of_eq t.isLt (N_1 : cfg1.N = 10)
    have := p.isLt; omega⟩

theorem row1_val (t : Fin cfg1.N) (p : Fin 5000) : (row1 t p).val = t.val * 5000 + p.val := rfl

/-- Entry (p, k) of the feature block at point t is entry (5000 t + p, k) of the aggregated features. -/
theorem emb1_0 (t : Fin cfg1.N) (p : Fin 5000) (k : Fin 256) :
    ((cfg1.win 0).blk t).view.emb (ix2 p k) = ix2 (row1 t p) k := by
  obtain ⟨h0, h1, -⟩ := index1 t
  funext a; apply Fin.ext
  match a with
  | ⟨0, _⟩ => show win1_0.index t (0 : Fin 2) * 5000 + 1 * p.val = t.val * 5000 + p.val; omega
  | ⟨1, _⟩ => show win1_0.index t (1 : Fin 2) * 256 + 1 * k.val = k.val; omega

/-- Entry (p, 0) of the scale block at point t is entry (5000 t + p, 0) of the scale column. -/
theorem emb1_1 (t : Fin cfg1.N) (p : Fin 5000) (u : Fin 1) :
    ((cfg1.win 1).blk t).view.emb (ix2 p u) = ix2 (row1 t p) u := by
  obtain ⟨-, -, h0, h1, -⟩ := index1 t
  funext a; apply Fin.ext
  match a with
  | ⟨0, _⟩ => show win1_1.index t (0 : Fin 2) * 5000 + 1 * p.val = t.val * 5000 + p.val; omega
  | ⟨1, _⟩ => show win1_1.index t (1 : Fin 2) * 1 + 1 * u.val = u.val; omega

/-- The bias block is the whole bias row. -/
theorem emb1_2 (t : Fin cfg1.N) (u : Fin 1) (k : Fin 256) :
    ((cfg1.win 2).blk t).view.emb (ix2 u k) = ix2 u k := by
  obtain ⟨-, -, -, -, h0, h1, -⟩ := index1 t
  funext a; apply Fin.ext
  match a with
  | ⟨0, _⟩ => show win1_2.index t (0 : Fin 2) * 1 + 1 * u.val = u.val; omega
  | ⟨1, _⟩ => show win1_2.index t (1 : Fin 2) * 256 + 1 * k.val = k.val; omega

/-- The weight block is the whole weight column. -/
theorem emb1_3 (t : Fin cfg1.N) (k : Fin 256) (u : Fin 1) :
    ((cfg1.win 3).blk t).view.emb (ix2 k u) = ix2 k u := by
  obtain ⟨-, -, -, -, -, -, h0, h1, -⟩ := index1 t
  funext a; apply Fin.ext
  match a with
  | ⟨0, _⟩ => show win1_3.index t (0 : Fin 2) * 256 + 1 * k.val = k.val; omega
  | ⟨1, _⟩ => show win1_3.index t (1 : Fin 2) * 1 + 1 * u.val = u.val; omega

/-- Entry (p, 0) of the result block at point t is entry (5000 t + p, 0) of the result. -/
theorem emb1_4 (t : Fin cfg1.N) (p : Fin 5000) (u : Fin 1) :
    ((cfg1.win 4).blk t).view.emb (ix2 p u) = ix2 (row1 t p) u := by
  obtain ⟨-, -, -, -, -, -, -, -, h0, h1⟩ := index1 t
  funext a; apply Fin.ext
  match a with
  | ⟨0, _⟩ => show win1_4.index t (0 : Fin 2) * 5000 + 1 * p.val = t.val * 5000 + p.val; omega
  | ⟨1, _⟩ => show win1_4.index t (1 : Fin 2) * 1 + 1 * u.val = u.val; omega

/-! ## What a grid point writes back -/

/-- What point t writes back is block t of the stage's function of the four whole arrays. -/
theorem flushed1_eq (c : Dev nD) (t : Fin cfg1.N) :
    (dat1 (F := Ideal) V c).flushed 4 t
      = ((cfg1.win 4).blk t).view.read (Elt Ideal)
          (Cert.Gcn.lay2 (V c main_v26) (V c main_v15) (V c main_v27) (V c main_arg3)) := by
  show (cfg1.win 4).cut (grid1.coords t) ((dat1 (F := Ideal) V c).after 4 t) = _
  rw [after1_4]
  unfold out1_4
  rw [View.canon_unit_zero zeros1]
  simp only [View.ld_unit_zero (S := S5000x256) zeros1, View.ld_unit_zero (S := S5000x1) zeros1,
    View.ld_unit_zero (S := S1x256) zeros1, View.ld_unit_zero (S := S256x1) zeros1]
  funext j
  obtain ⟨p, u, rfl⟩ : ∃ (p : Fin 5000) (u : Fin 1), j = ix2 p u := ⟨j 0, j 1, eq_ix2 j⟩
  obtain rfl : u = 0 := Subsingleton.elim u 0
  show k1_pay1 (F := Ideal) (iblk1 V c 0 t) (iblk1 V c 1 t) (iblk1 V c 2 t) (iblk1 V c 3 t) (ix2 p (0 : Fin 1))
    = Cert.Gcn.lay2 (V c main_v26) (V c main_v15) (V c main_v27) (V c main_arg3)
        (((cfg1.win 4).blk t).view.emb (ix2 p (0 : Fin 1)))
  refine (pay1_apply (iblk1 V c 0 t) (iblk1 V c 1 t) (iblk1 V c 2 t) (iblk1 V c 3 t) p 0).trans ?_
  rw [emb1_4 t p 0, Cert.Gcn.lay2_apply]
  unfold Cert.Gcn.lay2At
  refine congrArg₂ (· * ·) (Finset.sum_congr rfl fun k _ => congrArg₂ (· * ·) (congrArg (max · 0) ?_) ?_) ?_
  · refine congrArg₂ (· + ·) (congrArg₂ (· * ·) ?_ ?_) ?_
    · exact congrArg (V c main_v26) (emb1_0 t p k)
    · exact congrArg (V c main_v15) (emb1_1 t p 0)
    · exact congrArg (V c main_v27) (emb1_2 t 0 k)
  · exact congrArg (V c main_arg3) (emb1_3 t k 0)
  · exact congrArg (V c main_v15) (emb1_1 t p 0)

/-! ## The ten blocks tile the result -/

/-- An entry of the result lies in the block of point t iff each coordinate lies in the block's range. -/
theorem mem_blk1 (t : Fin cfg1.N) (i : S50000x1.Idx) :
    i ∈ ((cfg1.win 4).blk t).view.set ↔ ∀ a : Fin 2, win1_4.index t a * S5000x1.size a ≤ (i a).val
      ∧ (i a).val < win1_4.index t a * S5000x1.size a + S5000x1.size a := by
  show i ∈ ((View.whole main_v28).slice (win1_4.rect t)).set ↔ _
  rw [View.set_slice_whole, Rect.mem_set_unit]
  exact Iff.rfl

/-- Row r of the result lies in the block of point r / 5000. -/
theorem cover1 (i : S50000x1.Idx) :
    ∃ t : Fin cfg1.N, (cfg1.win 4).flush t = true ∧ i ∈ ((cfg1.win 4).blk t).view.set := by
  have hi0 : (i 0).val < 50000 := (i 0).isLt
  have hi1 : (i 1).val < 1 := (i 1).isLt
  obtain ⟨t, ht⟩ : ∃ t : Fin cfg1.N, t.val = (i 0).val / 5000 :=
    ⟨⟨(i 0).val / 5000, Nat.lt_of_lt_of_eq (by omega : (i 0).val / 5000 < 10) (N_1 : cfg1.N = 10).symm⟩, rfl⟩
  obtain ⟨-, -, -, -, -, -, -, -, h0, h1⟩ := index1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 1 ≤ (i 1).val ∧ (i 1).val < win1_4.index t (1 : Fin 2) * 1 + 1
    omega

/-! ## The result array after the stage -/

/-- After the ten grid points the result array holds the second stage's function of the aggregated features, the
    scale column, the bias row and the weight column, as the stage found them. -/
theorem final1 (c : Dev nD) :
    (dat1 (F := Ideal) V c).arrAt 4 cfg1.N
      = Cert.Gcn.lay2 (V c main_v26) (V c main_v15) (V c main_v27) (V c main_arg3) :=
  (dat1 (F := Ideal) V c).arrAt_eq_of_cover 4
    (Cert.Gcn.lay2 (V c main_v26) (V c main_v15) (V c main_v27) (V c main_arg3))
    (fun t _ => flushed1_eq V c t) cover1

end Cert.KernelIdeal.Region

end
-- ==== Proof.KernelChain.lean ====
/-
  The contents of the program's buffers at each boundary between a stretch of host operations and a fused stage, in
  terms of the glue functions of the argument arrays: each boundary's contents at the buffers later steps read are those
  functions of the launch contents; a stage leaves its result array at its closed form and every other buffer as it
  found it; the result buffer at the return is the program's result function.
-/
import proofs.«134522_j28776280883362_2_alg».proof.Proof.Gen.KernelIdeal.Frame
import proofs.«134522_j28776280883362_2_alg».proof.Proof.KernelDefs
import proofs.«134522_j28776280883362_2_alg».proof.Proof.Region0
import proofs.«134522_j28776280883362_2_alg».proof.Proof.Region1
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-! ## The boundary contents -/

variable (m : (ℓ : Loc nD τ sig) → Buf (Elt Ideal) ℓ) (ρ : Dev nD → PrngReg) (c : Dev nD)

/-! ### At the first region's entry -/

theorem W3_v3 : W3 m ρ c (Proc.devRef .tc main_v3) = rowArr (m ((c.tc : Thread nD τ).loc main_arg5)) := by
  show StableHlo.after hostOps0_2 (StableHlo.after hostOps0_1 (StableHlo.after hostOps0 (W0 m ρ c))) (Proc.devRef .tc main_v3) = _
  after_results; rfl

theorem W3_v6 : W3 m ρ c (Proc.devRef .tc main_v6) = colArr (m ((c.tc : Thread nD τ).loc main_arg5)) := by
  show StableHlo.after hostOps0_2 (StableHlo.after hostOps0_1 (StableHlo.after hostOps0 (W0 m ρ c))) (Proc.devRef .tc main_v6) = _
  after_results; rfl

/-- A value transported along a buffer's type equation and back is itself. -/
theorem ofBuf_toBuf {Val : EltTy → Type} {T : BufTy} (x : StableHlo.TRef sig T) (v : T.Contents Val) : x.ofBuf (x.toBuf v) = v := by
  obtain ⟨r, h, _, _⟩ := x
  subst h
  rfl

/-- A transported value is the value it was given beside. -/
theorem ofBuf_eq {Val : EltTy → Type} {T : BufTy} (x : StableHlo.TRef sig T) (v' : x.ref.ty.Contents Val) (v : T.Contents Val)
    (h : HEq v' v) : x.ofBuf v' = v :=
  eq_of_heq ((cast_heq _ v').trans h)

theorem toBuf_eq {Val : EltTy → Type} {T : BufTy} (x : StableHlo.TRef sig T) (v : T.Contents Val) (v' : x.ref.ty.Contents Val)
    (h : HEq v' v) : x.toBuf v = v' :=
  eq_of_heq ((cast_heq _ v).trans h.symm)

/-- Transports along buffers' type equations, in and out, around a select of three operands: with every transported
    value given beside its untransported twin, the transports cancel. Stated for arbitrary typed references and
    operands, so nothing of the operands' size is ever compared. -/
theorem select_transports {Val : EltTy → Type} {Ts Tm Tf : BufTy}
    (sel : Tm.Contents Val → Tf.Contents Val → Tf.Contents Val → Tf.Contents Val) (bc : Ts.Contents Val → Tf.Contents Val)
    (x14 x13 xc1 : StableHlo.TRef sig Tf) (x12 : StableHlo.TRef sig Tm) (xc0 xcs : StableHlo.TRef sig Ts)
    (C : Tm.Contents Val) (R : Tf.Contents Val) (Z : Ts.Contents Val)
    (C' : x12.ref.ty.Contents Val) (R' : x13.ref.ty.Contents Val) (Z' : xcs.ref.ty.Contents Val)
    (hC : HEq C' C) (hR : HEq R' R) (hZ : HEq Z' Z) (D : Tf.Contents Val) (D' : x14.ref.ty.Contents Val) (hD' : HEq D' D)
    (hD : D = sel C R (bc (id Z))) :
    x14.toBuf (sel (x12.ofBuf C') (x13.ofBuf R') (xc1.ofBuf (xc1.toBuf (bc (xc0.ofBuf (xc0.toBuf (id (xcs.ofBuf Z'))))))))
      = D' := by
  rw [ofBuf_toBuf, ofBuf_toBuf, ofBuf_eq x12 C' C hC, ofBuf_eq x13 R' R hR, ofBuf_eq xcs Z' Z hZ]
  exact toBuf_eq x14 _ D' (hD'.trans (heq_of_eq hD))

set_option maxHeartbeats 4000000 in
theorem W1_v10 : W1 m ρ c (Proc.devRef .tc main_v10) = deg (m ((c.tc : Thread nD τ).loc main_arg5)) := by
  show StableHlo.after hostOps0 (W0 m ρ c) (Proc.devRef .tc main_v10) = _
  after_results
  rfl

theorem W1_cst2 : W1 m ρ c (Proc.devRef .tc main_cst_2) = constant (F := Ideal) S_ .f32 0x00000000#32 := by
  show StableHlo.after hostOps0 (W0 m ρ c) (Proc.devRef .tc main_cst_2) = _
  after_results

set_option maxHeartbeats 4000000 in
theorem W1_v12 : W1 m ρ c (Proc.devRef .tc main_v12)
    = cmpf (F := Ideal) .ogt (deg (m ((c.tc : Thread nD τ).loc main_arg5)))
        (broadcastInDim S50000 ![] bcast_S_S50000 (constant (F := Ideal) S_ .f32 0x00000000#32)) := by
  show StableHlo.after hostOps0 (W0 m ρ c) (Proc.devRef .tc main_v12) = _
  after_results
  rfl

set_option maxHeartbeats 4000000 in
theorem W1_v13 : W1 m ρ c (Proc.devRef .tc main_v13) = Host.rsqrt (F := Ideal) (deg (m ((c.tc : Thread nD τ).loc main_arg5))) := by
  show StableHlo.after hostOps0 (W0 m ρ c) (Proc.devRef .tc main_v13) = _
  after_results
  rfl

theorem W2_v14 : W2 m ρ c (Proc.devRef .tc main_v14) = dinv (m ((c.tc : Thread nD τ).loc main_arg5)) := by
  have h12 := W1_v12 m ρ c
  have h13 := W1_v13 m ρ c
  have hc := W1_cst2 m ρ c
  show StableHlo.after hostOps0_1 (W1 m ρ c) (Proc.devRef .tc main_v14) = _
  generalize W1 m ρ c = V1 at h12 h13 hc ⊢
  after_results
  rw [h12, h13, hc]
  refine select_transports (Val := Elt Ideal) (Tm := ⟨S50000, .i1⟩) (Tf := ⟨S50000, .f32⟩) (Ts := ⟨S_, .f32⟩)
    select (broadcastInDim S50000 ![] bcast_S_S50000) _ _ _ _ _ _
    (cmpf (F := Ideal) .ogt (deg (m ((c.tc : Thread nD τ).loc main_arg5)))
      (broadcastInDim S50000 ![] bcast_S_S50000 (constant (F := Ideal) S_ .f32 0x00000000#32)))
    (Host.rsqrt (F := Ideal) (deg (m ((c.tc : Thread nD τ).loc main_arg5))))
    (constant (F := Ideal) S_ .f32 0x00000000#32) _ _ _ HEq.rfl HEq.rfl HEq.rfl
    (dinv (m ((c.tc : Thread nD τ).loc main_arg5))) _ HEq.rfl ?_
  unfold dinv
  rfl

theorem W3_v15 : W3 m ρ c (Proc.devRef .tc main_v15) = dinv2 (m ((c.tc : Thread nD τ).loc main_arg5)) := by
  have h := W2_v14 m ρ c
  show StableHlo.after hostOps0_2 (W2 m ρ c) (Proc.devRef .tc main_v15) = _
  generalize W2 m ρ c = V2 at h ⊢
  after_results
  rw [h]
  rfl

theorem W3_arg (b : Ref sig .tc) (hb : b = main_arg0 ∨ b = main_arg1 ∨ b = main_arg2 ∨ b = main_arg3 ∨ b = main_arg4) :
    W3 m ρ c (Proc.devRef .tc b) = m ((c.tc : Thread nD τ).loc b) := by
  show StableHlo.after hostOps0_2 (StableHlo.after hostOps0_1 (StableHlo.after hostOps0 (W0 m ρ c))) (Proc.devRef .tc b) = _
  rcases hb with rfl | rfl | rfl | rfl | rfl <;> after_results

/-! ### After the first region: its result at the closed form, every other buffer as it was -/

theorem W4_v3 : W4 m ρ c (Proc.devRef .tc main_v3) = rowArr (m ((c.tc : Thread nD τ).loc main_arg5)) :=
  (W4_of_ne m ρ c main_v3 (by decide)).trans (W3_v3 m ρ c)

theorem W4_v6 : W4 m ρ c (Proc.devRef .tc main_v6) = colArr (m ((c.tc : Thread nD τ).loc main_arg5)) :=
  (W4_of_ne m ρ c main_v6 (by decide)).trans (W3_v6 m ρ c)

theorem W4_v15 : W4 m ρ c (Proc.devRef .tc main_v15) = dinv2 (m ((c.tc : Thread nD τ).loc main_arg5)) :=
  (W4_arr m ρ c 2).trans ((((dat0 (V3 m ρ) c).arrAt_in 2 rfl _).trans (A_eq0 (V3 m ρ) c 2)).trans (W3_v15 m ρ c))

theorem W4_arg2 : W4 m ρ c (Proc.devRef .tc main_arg2) = m ((c.tc : Thread nD τ).loc main_arg2) :=
  (W4_of_ne m ρ c main_arg2 (by decide)).trans (W3_arg m ρ c main_arg2 (by simp))

theorem W4_arg3 : W4 m ρ c (Proc.devRef .tc main_arg3) = m ((c.tc : Thread nD τ).loc main_arg3) :=
  (W4_of_ne m ρ c main_arg3 (by decide)).trans (W3_arg m ρ c main_arg3 (by simp))

theorem W4_arg4 : W4 m ρ c (Proc.devRef .tc main_arg4) = m ((c.tc : Thread nD τ).loc main_arg4) :=
  (W4_of_ne m ρ c main_arg4 (by decide)).trans (W3_arg m ρ c main_arg4 (by simp))

theorem W4_v16 : W4 m ρ c (Proc.devRef .tc main_v16)
    = h1s (m ((c.tc : Thread nD τ).loc main_arg0)) (m ((c.tc : Thread nD τ).loc main_arg1)) (m ((c.tc : Thread nD τ).loc main_arg5)) := by
  refine (W4_arr m ρ c 3).trans ?_
  rw [Cert.KernelIdeal.Region.final0]
  show Cert.Gcn.lin1 (W3 m ρ c (Proc.devRef .tc main_arg0)) (W3 m ρ c (Proc.devRef .tc main_arg1)) (W3 m ρ c (Proc.devRef .tc main_v15)) = _
  rw [W3_arg m ρ c main_arg0 (by simp), W3_arg m ρ c main_arg1 (by simp), W3_v15]
  rfl

/-! ### At the second region's entry -/

theorem W5_v3 : W5 m ρ c (Proc.devRef .tc main_v3) = rowArr (m ((c.tc : Thread nD τ).loc main_arg5)) := by
  show StableHlo.after hostOps1 (W4 m ρ c) (Proc.devRef .tc main_v3) = _
  after_results
  exact W4_v3 m ρ c

theorem W5_v6 : W5 m ρ c (Proc.devRef .tc main_v6) = colArr (m ((c.tc : Thread nD τ).loc main_arg5)) := by
  show StableHlo.after hostOps1 (W4 m ρ c) (Proc.devRef .tc main_v6) = _
  after_results
  exact W4_v6 m ρ c

theorem W5_v15 : W5 m ρ c (Proc.devRef .tc main_v15) = dinv2 (m ((c.tc : Thread nD τ).loc main_arg5)) := by
  show StableHlo.after hostOps1 (W4 m ρ c) (Proc.devRef .tc main_v15) = _
  after_results
  exact W4_v15 m ρ c

theorem W5_arg3 : W5 m ρ c (Proc.devRef .tc main_arg3) = m ((c.tc : Thread nD τ).loc main_arg3) := by
  show StableHlo.after hostOps1 (W4 m ρ c) (Proc.devRef .tc main_arg3) = _
  after_results
  exact W4_arg3 m ρ c

theorem W5_arg4 : W5 m ρ c (Proc.devRef .tc main_arg4) = m ((c.tc : Thread nD τ).loc main_arg4) := by
  show StableHlo.after hostOps1 (W4 m ρ c) (Proc.devRef .tc main_arg4) = _
  after_results
  exact W4_arg4 m ρ c

theorem W5_v27 : W5 m ρ c (Proc.devRef .tc main_v27) = shapeCast S1x256 (m ((c.tc : Thread nD τ).loc main_arg2)) shapeCasts_S256_S1x256 := by
  show StableHlo.after hostOps1 (W4 m ρ c) (Proc.devRef .tc main_v27) = _
  after_results
  rw [W4_arg2]
  rfl

theorem W5_v26 : W5 m ρ c (Proc.devRef .tc main_v26)
    = agg1 (m ((c.tc : Thread nD τ).loc main_arg0)) (m ((c.tc : Thread nD τ).loc main_arg1)) (m ((c.tc : Thread nD τ).loc main_arg5)) := by
  show StableHlo.after hostOps1 (W4 m ρ c) (Proc.devRef .tc main_v26) = _
  after_results_simp
  rw [W4_v16, W4_v3, W4_v6]
  rfl

/-! ### After the second region -/

theorem W6_v3 : W6 m ρ c (Proc.devRef .tc main_v3) = rowArr (m ((c.tc : Thread nD τ).loc main_arg5)) :=
  (W6_of_ne m ρ c main_v3 (by decide)).trans (W5_v3 m ρ c)

theorem W6_v6 : W6 m ρ c (Proc.devRef .tc main_v6) = colArr (m ((c.tc : Thread nD τ).loc main_arg5)) :=
  (W6_of_ne m ρ c main_v6 (by decide)).trans (W5_v6 m ρ c)

theorem W6_v15 : W6 m ρ c (Proc.devRef .tc main_v15) = dinv2 (m ((c.tc : Thread nD τ).loc main_arg5)) :=
  (W6_arr m ρ c 1).trans ((((dat1 (V5 m ρ) c).arrAt_in 1 rfl _).trans (A_eq1 (V5 m ρ) c 1)).trans (W5_v15 m ρ c))

theorem W6_arg4 : W6 m ρ c (Proc.devRef .tc main_arg4) = m ((c.tc : Thread nD τ).loc main_arg4) :=
  (W6_of_ne m ρ c main_arg4 (by decide)).trans (W5_arg4 m ρ c)

theorem W6_v28 : W6 m ρ c (Proc.devRef .tc main_v28)
    = h2s (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5)) := by
  refine (W6_arr m ρ c 4).trans ?_
  rw [Cert.KernelIdeal.Region.final1]
  show Cert.Gcn.lay2 (W5 m ρ c (Proc.devRef .tc main_v26)) (W5 m ρ c (Proc.devRef .tc main_v15)) (W5 m ρ c (Proc.devRef .tc main_v27))
    (W5 m ρ c (Proc.devRef .tc main_arg3)) = _
  rw [W5_v26, W5_v15, W5_v27, W5_arg3]
  rfl

/-! ### At the return -/

/-- The result buffer at the last boundary is the program's result function of the arguments. -/
theorem W7_out : W7 m ρ c (Proc.devRef .tc main_v43)
    = outArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  show StableHlo.after hostOps2 (W6 m ρ c) (Proc.devRef .tc main_v43) = _
  after_results_simp
  rw [W6_v3, W6_v6, W6_v15, W6_arg4, W6_v28]
  rfl

end Cert.KernelIdeal.Chain

end
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.KernelValue.lean ====
/-
  The program's result read at a node.

  Entry v of the result is the network's value at node v in the arrangement that scales each message by the source's
  degree factor before the sum over the edges and by the target's after it: the scatter-adds are sums over the edges
  whose target (read signed) is v, the gathers read the row of the clamped source, the second stage's column is the
  second linear layer of the cut-off first layer, and the last line scales by the target's factor and adds the bias.
-/
import proofs.«134522_j28776280883362_2_alg».proof.Proof.KernelDefs
import proofs.«134522_j28776280883362_2_alg».proof.Proof.LibGatherRows
import proofs.«134522_j28776280883362_2_alg».proof.Proof.LibScatterRows2
import proofs.«134522_j28776280883362_2_alg».proof.Proof.LibColumn
import proofs.«134522_j28776280883362_2_alg».proof.Proof.LibKeepdims
import Idealize.ShloMosaic.Lib.ValueLayout
import Idealize.ShloMosaic.Lib.Pipeline.Value

noncomputable section

namespace Cert.KernelIdeal.Chain

open Cert.KernelIdeal Cert.KernelIdeal.Facts₀ Cert.KernelIdeal.Facts Cert.LibGatherRows
open Idealize.ShloMosaic Idealize.ShloMosaic.ValueIdx

/-- A scalar zero spread over any shape is zero at every index. -/
theorem zeros_apply {s : Shape} (h : S_.BroadcastsInDim s (![] : Fin 0 → Fin s.rank)) (i : s.Idx) :
    broadcastInDim s ![] h (constant (F := Ideal) S_ .f32 0x00000000#32) i = 0 := by
  rw [broadcastInDim_apply _ h _ i ix0 (fun a => a.elim0)]
  exact Ideal.ofBits_zero_f32

variable (a0 : FVec Ideal S50000x512 .f32) (a1 : FVec Ideal S512x256 .f32) (a2 : FVec Ideal S256 .f32)
  (a3 : FVec Ideal S256x1 .f32) (a4 : FVec Ideal S1 .f32) (a5 : IVec S2x800000 32)

/-- The first linear layer's entry. -/
def Hf (n : Fin 50000) (c : Fin 256) : EReal := ∑ k : Fin 512, a0 (ix2 n k) * a1 (ix2 k c)
/-- Node n's degree factor. -/
def df (n : Fin 50000) : EReal := dinv a5 (ix1 n)
/-- The node edge t's gather reads: the clamped source. -/
def rf (t : Fin 850000) : Fin 50000 := clampRow (N := 50000) (by decide) (rowN a5) t
/-- Edge t's target, read signed. -/
def sf (t : Fin 850000) : Int := (colS a5 (ix2 t (0 : Fin 1))).toInt

theorem dinv2_apply (n : Fin 50000) (u : Fin 1) : dinv2 a5 (ix2 n u) = df a5 n :=
  Cert.LibColumn.shapeCast_a_a1_apply (dinv a5) shapeCasts_S50000_S50000x1 n u

/-- A gathered row of the first stage: the linear layer at the clamped source, scaled by its factor. -/
theorem h1s_gather (t : Fin 850000) (k : Fin 256) :
    Host.gather gather_S50000x256_S850000x1_S850000x256_1_0_n_n_0_1_1256 (h1s a0 a1 a5) (rowN a5) (ix2 t k)
      = Hf a0 a1 (rf a5 t) k * df a5 (rf a5 t) := by
  refine (gather_rows_apply (N := 50000) (C := 256) (P := 850000) (by decide)
    gather_S50000x256_S850000x1_S850000x256_1_0_n_n_0_1_1256.wf (h1s a0 a1 a5) (rowN a5) t k).trans ?_
  show Cert.Gcn.lin1At a0 a1 (dinv2 a5) (rf a5 t) k = _
  unfold Cert.Gcn.lin1At
  rw [dinv2_apply]
  rfl

/-- The first aggregation at (n, k). -/
theorem agg1_apply (n : Fin 50000) (k : Fin 256) :
    agg1 a0 a1 a5 (ix2 n k) = Cert.Gcn.agg1K (Hf a0 a1) (df a5) (rf a5) (sf a5) n k := by
  unfold agg1
  refine (Cert.Lib.ScatterRows2.scatterAdd_rows_apply (M := 50000) (T := 850000) (C := 256)
    scatter_S50000x256_S850000x1_S850000x256_1_0_0_1.wf _ (colS a5) _ n k).trans ?_
  rw [zeros_apply, zero_add]
  unfold Cert.Gcn.agg1K
  refine Finset.sum_congr rfl fun t _ => ?_
  show (if sf a5 t = (n.val : Int) then _ else 0) = _
  rw [h1s_gather]

/-- The second stage at node n. -/
theorem h2s_apply (n : Fin 50000) (u : Fin 1) :
    h2s a0 a1 a2 a3 a5 (ix2 n u)
      = Cert.Gcn.h2sK (Hf a0 a1) (df a5) (rf a5) (sf a5) (fun c => a2 (ix1 c)) (fun c => a3 (ix2 c (0 : Fin 1))) n := by
  show Cert.Gcn.lay2At (agg1 a0 a1 a5) (dinv2 a5) (shapeCast S1x256 a2 shapeCasts_S256_S1x256) a3 n = _
  unfold Cert.Gcn.lay2At Cert.Gcn.h2sK
  rw [dinv2_apply]
  refine congrArg (· * df a5 n) (Finset.sum_congr rfl fun k _ => ?_)
  rw [agg1_apply, shapeCast_a_1a_apply]

/-- A gathered entry of the second stage: the stage at the clamped source. -/
theorem h2s_gather (t : Fin 850000) (u : Fin 1) :
    Host.gather gather_S50000x1_S850000x1_S850000x1_1_0_n_n_0_1_11 (h2s a0 a1 a2 a3 a5) (rowN a5) (ix2 t u)
      = Cert.Gcn.h2sK (Hf a0 a1) (df a5) (rf a5) (sf a5) (fun c => a2 (ix1 c)) (fun c => a3 (ix2 c (0 : Fin 1))) (rf a5 t) := by
  refine (gather_rows_apply (N := 50000) (C := 1) (P := 850000) (by decide)
    gather_S50000x1_S850000x1_S850000x1_1_0_n_n_0_1_11.wf (h2s a0 a1 a2 a3 a5) (rowN a5) t u).trans ?_
  exact h2s_apply a0 a1 a2 a3 a5 _ u

/-- The last bias spread over the column. -/
theorem bias2_apply (v : Fin 50000) (u : Fin 1) :
    broadcastInDim S50000x1 ![0, 1] bcast_S1x1_S50000x1_0_1 (broadcastInDim S1x1 ![1] bcast_S1_S1x1_1 a4) (ix2 v u)
      = a4 (ix1 (0 : Fin 1)) := by
  rw [broadcastInDim_apply _ bcast_S1x1_S50000x1_0_1 _ (ix2 v u) (ix2 (0 : Fin 1) (0 : Fin 1)) (fun ax => by
    match ax with
    | ⟨0, _⟩ => rfl
    | ⟨1, _⟩ => rfl)]
  rw [broadcastInDim_apply _ bcast_S1_S1x1_1 _ (ix2 (0 : Fin 1) (0 : Fin 1)) (ix1 (0 : Fin 1)) (fun ax => by
    match ax with
    | ⟨0, _⟩ => rfl)]

/-- The program's result at node v. -/
theorem outArr_apply (v : Fin 50000) :
    outArr a0 a1 a2 a3 a4 a5 (ix1 v)
      = Cert.Gcn.outK (Hf a0 a1) (df a5) (rf a5) (sf a5) (fun c => a2 (ix1 c)) (fun c => a3 (ix2 c (0 : Fin 1)))
          (a4 (ix1 (0 : Fin 1))) v := by
  unfold outArr
  rw [Cert.LibColumn.shapeCast_a1_a_apply, addf_apply, mulf_apply, dinv2_apply, bias2_apply]
  unfold Cert.Gcn.outK
  refine congrArg (fun z => df a5 v * z + a4 (ix1 (0 : Fin 1))) ?_
  refine (Cert.Lib.ScatterRows2.scatterAdd_rows_apply (M := 50000) (T := 850000) (C := 1)
    scatter_S50000x1_S850000x1_S850000x1_1_0_0_1.wf _ (colS a5) _ v (0 : Fin 1)).trans ?_
  rw [zeros_apply, zero_add]
  refine Finset.sum_congr rfl fun t _ => ?_
  show (if sf a5 t = (v.val : Int) then _ else 0) = _
  rw [h2s_gather]

end Cert.KernelIdeal.Chain

end
-- ==== Proof.Bridge.lean ====
/-
  The two programs compute their index arrays and their degree factor by the same operations of the edge list, so
  these are the same functions of it: the sources and the targets as a gather reads them, the targets as a
  scatter-add reads them, and the inverse square root of the degree.
-/
import proofs.«134522_j28776280883362_2_alg».proof.Proof.RefReadGen
import proofs.«134522_j28776280883362_2_alg».proof.Proof.KernelDefs

noncomputable section

namespace Cert.Bridge

open Idealize.ShloMosaic

variable (a5 : (⟨Cert.ReferenceIdeal.S2x800000, .i32⟩ : BufTy).Contents (Elt Ideal))

theorem rowN_eq : Cert.ReferenceIdeal.Read.val_main_v21 (F := Ideal) a5 = Cert.KernelIdeal.Chain.rowN a5 := rfl

theorem colN_eq : Cert.ReferenceIdeal.Read.val_main_v28 (F := Ideal) a5
    = Cert.KernelIdeal.Chain.normIdx (Cert.KernelIdeal.Chain.colArr a5) := rfl

theorem colS_eq : Cert.ReferenceIdeal.Read.val_main_v10 (F := Ideal) a5 = Cert.KernelIdeal.Chain.colS a5 := rfl

theorem dinv_eq : Cert.ReferenceIdeal.Read.val_main_v15 (F := Ideal) a5 = Cert.KernelIdeal.Chain.dinv a5 := rfl

end Cert.Bridge

end
-- ==== Proof.Algebra.lean ====
/-
  Moving the degree factor across the sum over the edges.

  Over the extended reals a factor moves across a finite sum when every term and the factor are real numbers
  (at an infinity distributivity fails). Every number of the network is real when the features, the weights and
  the first bias are: the linear layers are finite sums of products, the degree factor is real, the cut-off at
  zero keeps reals real. So scaling each message by d (r t) before the sum into node v and by d v after it gives
  the same as scaling each message by d (r t) * d v — and d v is what an index read at the edge's target
  finds, because only the edges whose target is v enter the sum.
-/
import proofs.«134522_j28776280883362_2_alg».proof.Proof.Spec

noncomputable section

namespace Cert.Gcn

open Idealize.ShloMosaic

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max_zero {x : EReal} (hx : IsReal x) : IsReal (max x 0) := by
  rcases le_total x 0 with h | h
  · rw [max_eq_right h]; exact IsReal.zero
  · rw [max_eq_left h]; exact hx

theorem IsReal.ite {p : Prop} [Decidable p] {x y : EReal} (hx : IsReal x) (hy : IsReal y) :
    IsReal (if p then x else y) := by
  split
  · exact hx
  · exact hy

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  refine ⟨∑ i ∈ s, g i, ?_⟩
  rw [coe_sum]
  exact Finset.sum_congr rfl fun i _ => hg i

/-- A real factor moves across a finite sum of reals. -/
theorem sum_mul_real {ι : Type} [Fintype ι] (g : ι → EReal) (D : EReal) (hg : ∀ i, IsReal (g i)) (hD : IsReal D) :
    ∑ i, g i * D = (∑ i, g i) * D := by
  obtain ⟨D', rfl⟩ := hD
  choose g' hg' using hg
  have e1 : ∀ i, g i * (D' : EReal) = ((g' i * D' : ℝ) : EReal) := fun i => by rw [hg' i, EReal.coe_mul]
  have e2 : ∑ i, g i = ((∑ i, g' i : ℝ) : EReal) := by
    rw [coe_sum]; exact Finset.sum_congr rfl fun i _ => hg' i
  rw [Finset.sum_congr rfl fun i _ => e1 i, e2, ← coe_sum, ← EReal.coe_mul, Finset.sum_mul]

section Net

variable (H : Fin 50000 → Fin 256 → EReal) (d : Fin 50000 → EReal) (r rc : Fin 850000 → Fin 50000)
  (s : Fin 850000 → Int) (b1 w2 : Fin 256 → EReal) (b2 : EReal)

/-- The sum over the edges into node v of messages each scaled by D equals the sum of the messages, scaled by D. -/
theorem edge_sum_scale (v : Fin 50000) (f : Fin 850000 → EReal) (D : EReal) (hf : ∀ t, IsReal (f t)) (hD : IsReal D) :
    (∑ t : Fin 850000, if s t = (v.val : Int) then f t * D else 0)
      = (∑ t : Fin 850000, if s t = (v.val : Int) then f t else 0) * D := by
  rw [← sum_mul_real _ D (fun t => IsReal.ite (hf t) IsReal.zero) hD]
  refine Finset.sum_congr rfl fun t _ => ?_
  split
  · rfl
  · rw [zero_mul]

variable (hH : ∀ n c, IsReal (H n c)) (hd : ∀ n, IsReal (d n)) (hb1 : ∀ c, IsReal (b1 c)) (hw2 : ∀ c, IsReal (w2 c))
  (hrc : ∀ t (v : Fin 50000), s t = (v.val : Int) → rc t = v)

include hH hd hrc in
/-- The first layer's output is the same in the two arrangements. -/
theorem out1R_eq (v : Fin 50000) (c : Fin 256) : out1R H d r rc s b1 v c = agg1K H d r s v c * d v + b1 c := by
  unfold out1R agg1K
  rw [← edge_sum_scale s v (fun t => H (r t) c * d (r t)) (d v) (fun t => (hH _ _).mul (hd _)) (hd v)]
  refine congrArg (· + b1 c) (Finset.sum_congr rfl fun t _ => ?_)
  split
  · rename_i h
    rw [hrc t v h, mul_assoc]
  · rfl

include hH hd hb1 hrc in
/-- The first layer's output is a real number. -/
theorem out1R_real (v : Fin 50000) (c : Fin 256) : IsReal (out1R H d r rc s b1 v c) := by
  unfold out1R
  exact (IsReal.sum _ fun t => IsReal.ite ((hH _ _).mul ((hd _).mul (hd _))) IsReal.zero).add (hb1 c)

include hH hd hb1 hw2 hrc in
theorem h2R_real (v : Fin 50000) : IsReal (h2R H d r rc s b1 w2 v) := by
  unfold h2R
  exact IsReal.sum _ fun c => (out1R_real H d r rc s b1 hH hd hb1 hrc v c).max_zero.mul (hw2 c)

include hH hd hrc in
/-- The second stage is the second linear layer scaled by the node's degree factor. -/
theorem h2sK_eq (v : Fin 50000) : h2sK H d r s b1 w2 v = h2R H d r rc s b1 w2 v * d v := by
  unfold h2sK h2R
  refine congrArg (· * d v) (Finset.sum_congr rfl fun c _ => ?_)
  rw [out1R_eq H d r rc s b1 hH hd hrc v c]

include hH hd hb1 hw2 hrc in
/-- The two arrangements of the network give the same result at every node. -/
theorem outK_eq_outR (v : Fin 50000) : outK H d r s b1 w2 b2 v = outR H d r rc s b1 w2 b2 v := by
  unfold outK outR
  refine congrArg (· + b2) ?_
  rw [mul_comm, ← edge_sum_scale s v (fun t => h2sK H d r s b1 w2 (r t)) (d v)
    (fun t => by rw [h2sK_eq H d r rc s b1 w2 hH hd hrc]; exact (h2R_real H d r rc s b1 w2 hH hd hb1 hw2 hrc _).mul (hd _)) (hd v)]
  refine Finset.sum_congr rfl fun t _ => ?_
  split
  · rename_i h
    rw [h2sK_eq H d r rc s b1 w2 hH hd hrc, hrc t v h, mul_assoc]
  · rfl

end Net

end Cert.Gcn

end
-- ==== Proof.Finite.lean ====
/-
  The precondition gives real numbers. The printed predicate says, of each of the five float
  arrays, that every entry x has |x| < +∞ (a comparison of max x (-x) with the pattern 0x7F800000,
  which denotes ⊤), the five answers joined by "and". An extended real whose absolute value is
  below ⊤ is neither ⊤ nor ⊥, hence the image of a real number.
-/
import proofs.«134522_j28776280883362_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The rank-zero shape has one index. -/
instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real with |x| < +∞ is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One array's "jnp.all(abs(x) < inf)" read back at an entry. -/
theorem real_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ValueIdx.ix0 = 1#1) (i : s.Idx) : ∃ r : ℝ, a i = (r : EReal) :=
  real_of_abs_lt (a i) (Host.reduce_andi_all _ _ hr hu ValueIdx.ix0 e i)

theorem real_of_pre [Cert.Pre_finite_inputs.Facts] (a0 : FVec Ideal S50000x512 .f32) (a1 : FVec Ideal S512x256 .f32)
    (a2 : FVec Ideal S256 .f32) (a3 : FVec Ideal S256x1 .f32) (a4 : FVec Ideal S1 .f32) (a5 : IVec S2x800000 32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal)) ∧
      (∀ i, ∃ r : ℝ, a3 i = (r : EReal)) ∧ (∀ i, ∃ r : ℝ, a4 i = (r : EReal)) := by
  have e := congrFun h ValueIdx.ix0
  dsimp only [Cert.Pre_finite_inputs.fn, Cert.Pre_finite_inputs.fn_part1, andi] at e
  obtain ⟨⟨⟨⟨e0, e1⟩, e2⟩, e3⟩, e4⟩ :
      (((_ = 1#1 ∧ _ = 1#1) ∧ _ = 1#1) ∧ _ = 1#1) ∧ _ = 1#1 := by
    simpa only [IntOp.andi_eq_one] using e
  exact ⟨real_of_all a0 _ _ _ e0, real_of_all a1 _ _ _ e1, real_of_all a2 _ _ _ e2, real_of_all a3 _ _ _ e3,
    real_of_all a4 _ _ _ e4⟩

end Cert.Finite

end
-- ==== Proof.NormIndex.lean ====
/-
  A start index that names a node is read back as that node.

  A scatter-add is indexed by the integer column a[t]; the matching gather is indexed by the same column after
  Python's wrap of negative entries (a[t] + 50000 where a[t] < 0, else a[t]), read signed and clamped into
  [0, 49999]. When the entry a[t], read signed, is the number v of a node (0 ≤ v < 50000), the signed comparison
  with 0 is false, the wrap keeps a[t], and the clamp min v 49999 is v.
-/
import proofs.«134522_j28776280883362_2_alg».proof.Proof.LibGatherRows
import proofs.«134522_j28776280883362_2_alg».proof.Proof.LibKeepdims
import Idealize.ShloMosaic.Lib.Affine
import Idealize.ShloMosaic.PureOps

namespace Cert.NormIndex

open Idealize.ShloMosaic Idealize.ShloMosaic.ValueIdx

/-- The wrap of one word: a word that is non-negative read signed is kept. -/
theorem wrap_of_nonneg (w : BitVec 32) (hw : 0 ≤ w.toInt) :
    Scalar.select (IntOp.cmpi .slt w 0#32) (IntOp.addi w 50000#32) w = w := by
  have hc : IntOp.cmpi .slt w 0#32 ≠ 1#1 := by
    rw [Ne, IntOp.cmpi_slt]
    show ¬ w.toInt < (0#32 : BitVec 32).toInt
    have : (0#32 : BitVec 32).toInt = 0 := by decide
    omega
  unfold Scalar.select
  exact if_neg hc

theorem clampRow_of_hit (a : IVec ⟨1, ![850000]⟩ 32)
    (hb : (⟨1, ![850000]⟩ : Shape).BroadcastsInDim ⟨2, ![850000, 1]⟩ (![0] : Fin 1 → Fin (⟨2, ![850000, 1]⟩ : Shape).rank))
    (h0 : (⟨0, ![]⟩ : Shape).BroadcastsInDim ⟨1, ![850000]⟩ (![] : Fin 0 → Fin (⟨1, ![850000]⟩ : Shape).rank))
    (t : Fin 850000) (v : Fin 50000)
    (hit : (broadcastInDim ⟨2, ![850000, 1]⟩ ![0] hb a (ix2 t (0 : Fin 1))).toInt = (v.val : Int)) :
    Cert.LibGatherRows.clampRow (N := 50000) (by decide)
      (broadcastInDim ⟨2, ![850000, 1]⟩ ![0] hb
        (select (cmpi .slt a (broadcastInDim ⟨1, ![850000]⟩ ![] h0 (constantI ⟨0, ![]⟩ 32 0#32)))
          (addi a (broadcastInDim ⟨1, ![850000]⟩ ![] h0 (constantI ⟨0, ![]⟩ 32 50000#32))) a)) t = v := by
  rw [Cert.Lib.Keepdims.broadcastInDim_a_a1_apply] at hit
  refine Fin.ext ?_
  show min (broadcastInDim ⟨2, ![850000, 1]⟩ ![0] hb
        (select (cmpi .slt a (broadcastInDim ⟨1, ![850000]⟩ ![] h0 (constantI ⟨0, ![]⟩ 32 0#32)))
          (addi a (broadcastInDim ⟨1, ![850000]⟩ ![] h0 (constantI ⟨0, ![]⟩ 32 50000#32))) a)
        (ix2 t (0 : Fin 1))).toInt.toNat (50000 - 1) = v.val
  rw [Cert.Lib.Keepdims.broadcastInDim_a_a1_apply]
  show min (Scalar.select (IntOp.cmpi .slt (a (ix1 t)) 0#32) (IntOp.addi (a (ix1 t)) 50000#32) (a (ix1 t))).toInt.toNat (50000 - 1)
    = v.val
  rw [wrap_of_nonneg _ (by rw [hit]; exact Int.natCast_nonneg _), hit]
  have := v.isLt
  simp only [Int.toNat_natCast]
  omega

end Cert.NormIndex
-- ==== Proof.DegreeReal.lean ====
/-
  The degree factor is a real number.

  The degree of node n is a scatter-add of ones into zeros: 0 plus the sum, over the edges that land on n, of 1,
  that is the number of those edges, a natural number read as a real. The factor is the inverse square root of the
  degree where the degree is positive, which for a positive real r is the real (√r)⁻¹, and the literal zero elsewhere.
  Either way it is the image of a real number.

  Every step is proved over arbitrary shapes: the sum runs over the index set of the updates, and a statement over
  a shape variable never asks for that set to be enumerated. The statement at the sizes of the program is an
  instance of the general one, read off without unfolding the scatter-add.
-/
import Idealize.ShloMosaic.Lib.IdealHost

noncomputable section

namespace Cert.DegreeReal

open Idealize.ShloMosaic Idealize.ShloMosaic.ValueIdx

/-! ## Over arbitrary shapes -/

/-- A sum of ones over a finite set is its number of elements, as a real. -/
theorem sum_one {ι : Type} (S : Finset ι) : (∑ _j ∈ S, (1 : EReal)) = (((S.card : ℕ) : ℝ) : EReal) := by
  rw [Finset.sum_const, nsmul_one]
  rfl

/-- Ones scattered with addition into zeros count the updates that land on an element: a natural number. -/
theorem scatterAdd_ones_nat {s si su : Shape} (d : ScatterDims s si su) {w : Nat} (x : s.Idx → EReal) (idx : IVec si w)
    (upd : su.Idx → EReal) (hx : ∀ i, x i = 0) (hu : ∀ j, upd j = 1) (n : s.Idx) :
    ∃ k : ℕ, Ideal.hostScatterAdd d x idx upd n = ((k : ℝ) : EReal) := by
  unfold Ideal.hostScatterAdd
  rw [hx, zero_add, Finset.sum_congr rfl (fun j _ => hu j), sum_one]
  exact ⟨_, rfl⟩

/-- The zero literal spread over any shape reads 0. -/
theorem zeros_apply {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply]
  exact Ideal.ofBits_zero_f32

/-- The same with the literal passed through the identity function first. -/
theorem zeros_id_apply {T : Shape} (h : (⟨0, ![]⟩ : Shape).BroadcastsInDim T ![]) (j : T.Idx) :
    broadcastInDim T ![] h (id (constant (F := Ideal) ⟨0, ![]⟩ .f32 0x00000000#32)) j = 0 :=
  zeros_apply h j

/-- The one literal spread over any shape reads 1. -/
theorem ones_apply {T : Shape} (h : (⟨0, ![]⟩ : Shape).BroadcastsInDim T ![]) (j : T.Idx) :
    broadcastInDim T ![] h (constant (F := Ideal) ⟨0, ![]⟩ .f32 0x3F800000#32) j = 1 := by
  rw [broadcastInDim_scalar_apply]
  exact Ideal.ofBits_one_f32

/-- The choice made at one entry: for a real degree the result is a real number. -/
theorem sel_real (r : ℝ) :
    ∃ q : ℝ, Scalar.select (Ideal.cmp .ogt (r : EReal) 0) (Ideal.rsqrt (r : EReal)) 0 = (q : EReal) := by
  by_cases h : 0 < r
  · have hc : Ideal.cmp .ogt (r : EReal) 0 = 1#1 := by
      have : (0 : EReal) < (r : EReal) := EReal.coe_pos.mpr h
      simp [Ideal.cmp, this]
    refine ⟨(Real.sqrt r)⁻¹, ?_⟩
    unfold Scalar.select
    rw [Ideal.rsqrt_coe, if_neg (not_lt.mpr h.le), if_neg h.ne']
    exact if_pos hc
  · have hc : Ideal.cmp .ogt (r : EReal) 0 ≠ 1#1 := by
      have : ¬ (0 : EReal) < (r : EReal) := fun h' => h (EReal.coe_pos.mp h')
      simp [Ideal.cmp, this]
    refine ⟨0, ?_⟩
    unfold Scalar.select
    exact (if_neg hc).trans EReal.coe_zero.symm

/-- Where the degree vector reads a real and the two fill vectors read 0, the selected inverse square root
    reads a real. -/
theorem sel_vec_real {s : Shape} (D Z1 Z2 : FVec Ideal s .f32) (n : s.Idx) (h1 : Z1 n = 0) (h2 : Z2 n = 0)
    (hD : ∃ r : ℝ, D n = (r : EReal)) :
    ∃ q : ℝ, select (cmpf (F := Ideal) .ogt D Z1) (Host.rsqrt (F := Ideal) D) Z2 n = (q : EReal) := by
  obtain ⟨r, hr⟩ := hD
  show ∃ q : ℝ, Scalar.select (Ideal.cmp .ogt (D n) (Z1 n)) (Ideal.rsqrt (D n)) (Z2 n) = (q : EReal)
  rw [h1, h2, hr]
  exact sel_real r

/-- The scatter-add of a vector of ones into a vector of zeros reads a natural number. -/
theorem scatter_nat {s si su : Shape} (sc : ScatterDims s si su) {w : Nat} (idx : IVec si w) (Z0 : FVec Ideal s .f32)
    (O : FVec Ideal su .f32) (h0 : ∀ i, Z0 i = 0) (hO : ∀ j, O j = 1) (n : s.Idx) :
    ∃ k : ℕ, Host.scatterAdd (F := Ideal) sc Z0 idx O n = ((k : ℝ) : EReal) :=
  scatterAdd_ones_nat sc Z0 idx O h0 hO n

/-- THE GENERAL STATEMENT: ones scattered with addition into zeros, compared with zeros, the inverse square root
    selected where the comparison holds and zeros elsewhere: every entry is a real number. The three vectors of
    zeros and the vector of ones are arbitrary vectors with those entries. -/
theorem sel_rsqrt_scatter_real {s si su : Shape} (sc : ScatterDims s si su) {w : Nat} (idx : IVec si w)
    (Z0 Z1 Z2 : FVec Ideal s .f32) (O : FVec Ideal su .f32) (h0 : ∀ i, Z0 i = 0) (h1 : ∀ i, Z1 i = 0) (h2 : ∀ i, Z2 i = 0)
    (hO : ∀ j, O j = 1) (n : s.Idx) :
    ∃ r : ℝ, select (cmpf (F := Ideal) .ogt (Host.scatterAdd (F := Ideal) sc Z0 idx O) Z1)
      (Host.rsqrt (F := Ideal) (Host.scatterAdd (F := Ideal) sc Z0 idx O)) Z2 n = (r : EReal) := by
  obtain ⟨k, hk⟩ := scatter_nat sc idx Z0 O h0 hO n
  exact sel_vec_real _ Z1 Z2 n (h1 n) (h2 n) ⟨(k : ℝ), hk⟩

/-! ## At the sizes of the program -/

/-- The degree vector: ones scattered, with addition, into zeros at the column of start indices. -/
def deg (sc : ScatterDims ⟨1, ![50000]⟩ ⟨2, ![850000, 1]⟩ ⟨1, ![850000]⟩) (idx : IVec ⟨2, ![850000, 1]⟩ 32)
    (hz : (⟨0, ![]⟩ : Shape).BroadcastsInDim ⟨1, ![50000]⟩ (![] : Fin 0 → Fin (⟨1, ![50000]⟩ : Shape).rank))
    (ho : (⟨0, ![]⟩ : Shape).BroadcastsInDim ⟨1, ![850000]⟩ (![] : Fin 0 → Fin (⟨1, ![850000]⟩ : Shape).rank)) :
    FVec Ideal ⟨1, ![50000]⟩ .f32 :=
  Host.scatterAdd (F := Ideal) sc
    (broadcastInDim ⟨1, ![50000]⟩ ![] hz (constant (F := Ideal) ⟨0, ![]⟩ .f32 0x00000000#32)) idx
    (broadcastInDim ⟨1, ![850000]⟩ ![] ho (constant (F := Ideal) ⟨0, ![]⟩ .f32 0x3F800000#32))

/-- The degree factor: the inverse square root of the degree where it is positive, zero elsewhere. -/
def dinv (sc : ScatterDims ⟨1, ![50000]⟩ ⟨2, ![850000, 1]⟩ ⟨1, ![850000]⟩) (idx : IVec ⟨2, ![850000, 1]⟩ 32)
    (hz : (⟨0, ![]⟩ : Shape).BroadcastsInDim ⟨1, ![50000]⟩ (![] : Fin 0 → Fin (⟨1, ![50000]⟩ : Shape).rank))
    (ho : (⟨0, ![]⟩ : Shape).BroadcastsInDim ⟨1, ![850000]⟩ (![] : Fin 0 → Fin (⟨1, ![850000]⟩ : Shape).rank)) :
    FVec Ideal ⟨1, ![50000]⟩ .f32 :=
  select
    (cmpf (F := Ideal) .ogt (deg sc idx hz ho)
      (broadcastInDim ⟨1, ![50000]⟩ ![] hz (constant (F := Ideal) ⟨0, ![]⟩ .f32 0x00000000#32)))
    (Host.rsqrt (F := Ideal) (deg sc idx hz ho))
    (broadcastInDim ⟨1, ![50000]⟩ ![] hz (constant (F := Ideal) ⟨0, ![]⟩ .f32 0x00000000#32))

theorem dinv_real (sc : ScatterDims ⟨1, ![50000]⟩ ⟨2, ![850000, 1]⟩ ⟨1, ![850000]⟩) (idx : IVec ⟨2, ![850000, 1]⟩ 32)
    (hz : (⟨0, ![]⟩ : Shape).BroadcastsInDim ⟨1, ![50000]⟩ (![] : Fin 0 → Fin (⟨1, ![50000]⟩ : Shape).rank))
    (ho : (⟨0, ![]⟩ : Shape).BroadcastsInDim ⟨1, ![850000]⟩ (![] : Fin 0 → Fin (⟨1, ![850000]⟩ : Shape).rank))
    (n : (⟨1, ![50000]⟩ : Shape).Idx) : ∃ r : ℝ, dinv sc idx hz ho n = (r : EReal) := by
  unfold dinv deg
  exact sel_rsqrt_scatter_real sc idx _ _ _ _ (zeros_apply hz) (zeros_apply hz) (zeros_apply hz) (ones_apply ho) n

end Cert.DegreeReal

end
-- ==== Proof.lean ====
/-
  A two-layer graph convolution with symmetric degree normalization, computed two ways.

  With h = x · W1, d the inverse square root of each node's degree (self-loops included; zero where the degree is
  zero) and the edge list read as sources r(t) and targets, one program forms, per layer, the sum over the edges into
  node v of h[r(t)] · (d[r(t)] · d[target(t)]) and adds the bias; the other multiplies h by d row by row inside its first
  fused stage, sums the gathered rows into the targets, and multiplies by d[v] (adding the bias, cutting off at zero and
  applying the second linear layer) inside its second fused stage, and once more after the last sum. Over the extended
  reals the two agree because every number involved is a real number when the float inputs are finite: the linear
  layers are finite sums of products of reals, the degree is a count, and a real factor moves across a finite sum of
  reals (Algebra). The precondition is used exactly there.

  The pieces: the program's run with its result buffer named (KernelRun), the boundary contents as functions of the
  arguments, each fused stage contributing its closed form (Region0, Region1, KernelChain), the result read at a node
  (KernelValue); the reference's run (RefRun) read at a node (RefReadGen, RefRead); the shared index arrays and degree
  factor identified (Bridge); finiteness from the precondition (Finite), the degree factor real (DegreeReal), and an
  in-range target read back as itself by an index read (NormIndex).
-/
import proofs.«134522_j28776280883362_2_alg».proof.Defs
import proofs.«134522_j28776280883362_2_alg».proof.Proof.Gen.Kernel
import proofs.«134522_j28776280883362_2_alg».proof.Proof.Gen.Kernel.Skeleton
import proofs.«134522_j28776280883362_2_alg».proof.Proof.Gen.Kernel.Launch
import proofs.«134522_j28776280883362_2_alg».proof.Proof.Gen.Kernel.Points
import proofs.«134522_j28776280883362_2_alg».proof.Proof.Gen.Kernel.Frame
import proofs.«134522_j28776280883362_2_alg».proof.Proof.Gen.KernelIdeal
import proofs.«134522_j28776280883362_2_alg».proof.Proof.Gen.KernelIdeal.Skeleton
import proofs.«134522_j28776280883362_2_alg».proof.Proof.Gen.KernelIdeal.Launch
import proofs.«134522_j28776280883362_2_alg».proof.Proof.Gen.KernelIdeal.Points
import proofs.«134522_j28776280883362_2_alg».proof.Proof.Gen.KernelIdeal.Frame
import proofs.«134522_j28776280883362_2_alg».proof.Proof.Gen.ReferenceIdeal
import proofs.«134522_j28776280883362_2_alg».proof.Proof.Gen.Pre_finite_inputs
import proofs.«134522_j28776280883362_2_alg».proof.Proof.RefRun
import proofs.«134522_j28776280883362_2_alg».proof.Proof.RefReadGen
import proofs.«134522_j28776280883362_2_alg».proof.Proof.RefRead
import proofs.«134522_j28776280883362_2_alg».proof.Proof.KernelRun
import proofs.«134522_j28776280883362_2_alg».proof.Proof.KernelChain
import proofs.«134522_j28776280883362_2_alg».proof.Proof.KernelValue
import proofs.«134522_j28776280883362_2_alg».proof.Proof.Bridge
import proofs.«134522_j28776280883362_2_alg».proof.Proof.Algebra
import proofs.«134522_j28776280883362_2_alg».proof.Proof.Finite
import proofs.«134522_j28776280883362_2_alg».proof.Proof.NormIndex
import proofs.«134522_j28776280883362_2_alg».proof.Proof.DegreeReal
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two results are one function of the arguments -/

open Cert.KernelIdeal.Chain in
/-- At finite float arguments the reference's result array is the program's. -/
theorem result_eq (a0 : FVec Ideal Cert.KernelIdeal.S50000x512 .f32) (a1 : FVec Ideal Cert.KernelIdeal.S512x256 .f32)
    (a2 : FVec Ideal Cert.KernelIdeal.S256 .f32) (a3 : FVec Ideal Cert.KernelIdeal.S256x1 .f32)
    (a4 : FVec Ideal Cert.KernelIdeal.S1 .f32) (a5 : IVec Cert.KernelIdeal.S2x800000 32)
    (h0 : ∀ i, ∃ r : ℝ, a0 i = (r : EReal)) (h1 : ∀ i, ∃ r : ℝ, a1 i = (r : EReal)) (h2 : ∀ i, ∃ r : ℝ, a2 i = (r : EReal))
    (h3 : ∀ i, ∃ r : ℝ, a3 i = (r : EReal)) :
    Cert.ReferenceIdeal.Read.val_main_v87 (F := Ideal) a0 a1 a2 a3 a4 a5 = outArr a0 a1 a2 a3 a4 a5 := by
  funext i
  obtain ⟨v, rfl⟩ : ∃ v : Fin 50000, i = ix1 v := ⟨i 0, eq_ix1 i⟩
  rw [Cert.ReferenceIdeal.RefRead.ref_eq, outArr_apply, Cert.Bridge.rowN_eq, Cert.Bridge.colN_eq, Cert.Bridge.colS_eq,
    Cert.Bridge.dinv_eq]
  refine (Cert.Gcn.outK_eq_outR (Hf a0 a1) (df a5) (rf a5)
    (fun t => Cert.LibGatherRows.clampRow (N := 50000) (by decide) (normIdx (colArr a5)) t) (sf a5)
    (fun c => a2 (ix1 c)) (fun c => a3 (ix2 c (0 : Fin 1))) (a4 (ix1 (0 : Fin 1))) ?_ ?_ ?_ ?_ ?_ v).symm
  · intro n c
    exact Cert.Gcn.IsReal.sum _ fun k => Cert.Gcn.IsReal.mul (h0 _) (h1 _)
  · intro n
    show ∃ r : ℝ, dinv a5 (ix1 n) = (r : EReal)
    unfold dinv deg
    exact Cert.DegreeReal.sel_rsqrt_scatter_real _ (colS a5) _ _ _ _ (Cert.DegreeReal.zeros_apply _) (Cert.DegreeReal.zeros_apply _)
      (Cert.DegreeReal.zeros_id_apply _) (Cert.DegreeReal.ones_apply _) (ix1 n)
  · intro c; exact h2 _
  · intro c; exact h3 _
  · intro t v hit
    exact Cert.NormIndex.clampRow_of_hit (colArr a5) Cert.KernelIdeal.Facts₀.bcast_S850000_S850000x1_0 Cert.KernelIdeal.Facts₀.bcast_S_S850000 t v hit

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs run; the program's result buffer ends at its result function of the arguments, the reference's at
    its own, and at finite arguments the two are one function. -/
theorem algebraic : Cert.algebraic_KernelIdeal_ReferenceIdeal := by
  intro m ρ m' ρ' hpre hagree
  refine ⟨fun c => Cert.KernelIdeal.Chain.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.W7_out m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    obtain ⟨r0, r1, r2, r3, -⟩ := Cert.Finite.real_of_pre _ _ _ _ _ _ (hpre c)
    rw [Cert.ReferenceIdeal.Read.val_main_v87_eq, e0, e1, e2, e3, e4, e5]
    exact result_eq _ _ _ _ _ _ r0 r1 r2 r3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
